-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S2x4194304 : Shape := ⟨2, ![2, 4194304]⟩
abbrev S262144 : Shape := ⟨1, ![262144]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x26 : Shape := ⟨2, ![32, 26]⟩
abbrev S26 : Shape := ⟨1, ![26]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x26 : S_.BroadcastsInDim S32x26 (![] : Fin 0 → Fin S32x26.rank)
  reducesTo_S32x26_S_d0_1 : S32x26.ReducesTo [0, 1] S_
  bcast_S_S26 : S_.BroadcastsInDim S26 (![] : Fin 0 → Fin S26.rank)
  reducesTo_S26_S_d0 : S26.ReducesTo [0] S_

variable [Facts]

def fn_part1 {F : FTy → Type} [FloatOps F] (main_arg6 : FVec F S32 .f32) (main_arg7 : FVec F S32x26 .f32) (main_arg8 : FVec F S26 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x26 .f32 := Host.absf main_arg7
  let main_cst_8 : FVec F S_ .f32 := constant S_ .f32 0x7F800000#32
  let main_v25 : FVec F S32x26 .f32 := broadcastInDim S32x26 ![] bcast_S_S32x26 main_cst_8
  let main_v26 : IVec S32x26 1 := cmpf .olt main_v24 main_v25
  let main_c_9 : IVec S_ 1 := constantI S_ 1 1#1
  let main_v27 : IVec S_ 1 := (fun x v => Host.reduce IntOp.andi x v reducesTo_S32x26_S_d0_1 h_S_) main_v26 main_c_9
  let main_v28 : IVec S_ 1 := andi main_v23 main_v27
  let main_v29 : FVec F S26 .f32 := Host.absf main_arg8
  let main_cst_10 : FVec F S_ .f32 := constant S_ .f32 0x7F800000#32
  let main_v30 : FVec F S26 .f32 := broadcastInDim S26 ![] bcast_S_S26 main_cst_10
  let main_v31 : IVec S26 1 := cmpf .olt main_v29 main_v30
  let main_c_11 : IVec S_ 1 := constantI S_ 1 1#1
  let main_v32 : IVec S_ 1 := (fun x v => Host.reduce IntOp.andi x v reducesTo_S26_S_d0 h_S_) main_v31 main_c_11
  let main_v33 : IVec S_ 1 := andi main_v28 main_v32
  main_v33

def fn {F : FTy → Type} [FloatOps F] (main_arg0 : FVec F S262144x3 .f32) (main_arg1 : IVec S2x4194304 32) (main_arg2 : IVec S262144 32) (main_arg3 : FVec F S3x16 .f32) (main_arg4 : FVec F S16 .f32) (main_arg5 : FVec F S16x32 .f32) (main_arg6 : FVec F S32 .f32) (main_arg7 : FVec F S32x26 .f32) (main_arg8 : FVec F S26 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S3x16 .f32 := Host.absf main_arg3
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_v13 main_v16
-- ==== Kernel.lean ====
abbrev S262144x3 : Shape := ⟨2, ![262144, 3]⟩
abbrev S2x4194304 : Shape := ⟨2, ![2, 4194304]⟩
abbrev S262144 : Shape := ⟨1, ![262144]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x26 : Shape := ⟨2, ![32, 26]⟩
abbrev S26 : Shape := ⟨1, ![26]⟩
abbrev S1x4194304 : Shape := ⟨2, ![1, 4194304]⟩
abbrev S4194304 : Shape := ⟨1, ![4194304]⟩
abbrev S_ : Shape := ⟨0, ![]⟩
abbrev S4194304x1 : Shape := ⟨2, ![4194304, 1]⟩
abbrev S262144x16 : Shape := ⟨2, ![262144, 16]⟩
abbrev S2048x3 : Shape := ⟨2, ![2048, 3]⟩
abbrev S2048x16 : Shape := ⟨2, ![2048, 16]⟩
abbrev S4194304x16 : Shape := ⟨2, ![4194304, 16]⟩
abbrev S262144x1 : Shape := ⟨2, ![262144, 1]⟩
abbrev S1x16 : Shape := ⟨2, ![1, 16]⟩
abbrev S2048x1 : Shape := ⟨2, ![2048, 1]⟩
abbrev S262144x32 : Shape := ⟨2, ![262144, 32]⟩
abbrev S2048x32 : Shape := ⟨2, ![2048, 32]⟩
abbrev S4194304x32 : Shape := ⟨2, ![4194304, 32]⟩
abbrev S1x32 : Shape := ⟨2, ![1, 32]⟩
abbrev S16384x32 : Shape := ⟨2, ![16384, 32]⟩
abbrev S16384 : Shape := ⟨1, ![16384]⟩
abbrev S16384x1 : Shape := ⟨2, ![16384, 1]⟩
abbrev S1x26 : Shape := ⟨2, ![1, 26]⟩
abbrev S16384x26 : Shape := ⟨2, ![16384, 26]⟩
abbrev S4096x32 : Shape := ⟨2, ![4096, 32]⟩
abbrev S4096x1 : Shape := ⟨2, ![4096, 1]⟩
abbrev S4096x26 : Shape := ⟨2, ![4096, 26]⟩

abbrev nBuf : Space → Nat
  | .hbm => 122
  | .vmem => 36
  | .smem => 0
  | _ => 0

abbrev bufTy : (tb : Table) → Fin (tcTables nBuf tb) → BufTy
  | .hbm, ⟨0, _⟩ => ⟨S262144x3, .f32⟩
  | .hbm, ⟨1, _⟩ => ⟨S2x4194304, .i32⟩
  | .hbm, ⟨2, _⟩ => ⟨S262144, .i32⟩
  | .hbm, ⟨3, _⟩ => ⟨S3x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S32x26, .f32⟩
  | .hbm, ⟨8, _⟩ => ⟨S26, .f32⟩
  | .hbm, ⟨9, _⟩ => ⟨S1x4194304, .i32⟩
  | .hbm, ⟨10, _⟩ => ⟨S4194304, .i32⟩
  | .hbm, ⟨11, _⟩ => ⟨S1x4194304, .i32⟩
  | .hbm, ⟨12, _⟩ => ⟨S4194304, .i32⟩
  | .hbm, ⟨13, _⟩ => ⟨S_, .f32⟩
  | .hbm, ⟨14, _⟩ => ⟨S4194304, .f32⟩
  | .hbm, ⟨15, _⟩ => ⟨S_, .f32⟩
  | .hbm, ⟨16, _⟩ => ⟨S262144, .f32⟩
  | .hbm, ⟨17, _⟩ => ⟨S4194304x1, .i32⟩
  | .hbm, ⟨18, _⟩ => ⟨S262144, .f32⟩
  | .hbm, ⟨19, _⟩ => ⟨S_, .f32⟩
  | .hbm, ⟨20, _⟩ => ⟨S262144, .f32⟩
  | .hbm, ⟨21, _⟩ => ⟨S262144, .f32⟩
  | .hbm, ⟨22, _⟩ => ⟨S262144, .f32⟩
  | .hbm, ⟨23, _⟩ => ⟨S262144x16, .f32⟩
  | .hbm, ⟨24, _⟩ => ⟨S_, .i32⟩
  | .hbm, ⟨25, _⟩ => ⟨S4194304, .i32⟩
  | .hbm, ⟨26, _⟩ => ⟨S4194304, .i1⟩
  | .hbm, ⟨27, _⟩ => ⟨S_, .i32⟩
  | .hbm, ⟨28, _⟩ => ⟨S4194304, .i32⟩
  | .hbm, ⟨29, _⟩ => ⟨S4194304, .i32⟩
  | .hbm, ⟨30, _⟩ => ⟨S4194304, .i32⟩
  | .hbm, ⟨31, _⟩ => ⟨S4194304x1, .i32⟩
  | .hbm, ⟨32, _⟩ => ⟨S4194304, .f32⟩
  | .hbm, ⟨33, _⟩ => ⟨S_, .i32⟩
  | .hbm, ⟨34, _⟩ => ⟨S4194304, .i32⟩
  | .hbm, ⟨35, _⟩ => ⟨S4194304, .i1⟩
  | .hbm, ⟨36, _⟩ => ⟨S_, .i32⟩
  | .hbm, ⟨37, _⟩ => ⟨S4194304, .i32⟩
  | .hbm, ⟨38, _⟩ => ⟨S4194304, .i32⟩
  | .hbm, ⟨39, _⟩ => ⟨S4194304, .i32⟩
  | .hbm, ⟨40, _⟩ => ⟨S4194304x1, .i32⟩
  | .hbm, ⟨41, _⟩ => ⟨S4194304, .f32⟩
  | .hbm, ⟨42, _⟩ => ⟨S4194304, .f32⟩
  | .hbm, ⟨43, _⟩ => ⟨S4194304x1, .f32⟩
  | .hbm, ⟨44, _⟩ => ⟨S_, .i32⟩
  | .hbm, ⟨45, _⟩ => ⟨S4194304, .i32⟩
  | .hbm, ⟨46, _⟩ => ⟨S4194304, .i1⟩
  | .hbm, ⟨47, _⟩ => ⟨S_, .i32⟩
  | .hbm, ⟨48, _⟩ => ⟨S4194304, .i32⟩
  | .hbm, ⟨49, _⟩ => ⟨S4194304, .i32⟩
  | .hbm, ⟨50, _⟩ => ⟨S4194304, .i32⟩
  | .hbm, ⟨51, _⟩ => ⟨S4194304x1, .i32⟩
  | .hbm, ⟨52, _⟩ => ⟨S4194304x16, .f32⟩
  | .hbm, ⟨53, _⟩ => ⟨S4194304x16, .f32⟩
  | .hbm, ⟨54, _⟩ => ⟨S4194304x16, .f32⟩
  | .hbm, ⟨55, _⟩ => ⟨S_, .f32⟩
  | .hbm, ⟨56, _⟩ => ⟨S262144x16, .f32⟩
  | .hbm, ⟨57, _⟩ => ⟨S4194304x1, .i32⟩
  | .hbm, ⟨58, _⟩ => ⟨S262144x16, .f32⟩
  | .hbm, ⟨59, _⟩ => ⟨S_, .f32⟩
  | .hbm, ⟨60, _⟩ => ⟨S262144, .f32⟩
  | .hbm, ⟨61, _⟩ => ⟨S262144, .f32⟩
  | .hbm, ⟨62, _⟩ => ⟨S262144, .f32⟩
  | .hbm, ⟨63, _⟩ => ⟨S262144x1, .f32⟩
  | .hbm, ⟨64, _⟩ => ⟨S1x16, .f32⟩
  | .hbm, ⟨65, _⟩ => ⟨S262144x16, .f32⟩
  | .hbm, ⟨66, _⟩ => ⟨S262144x32, .f32⟩
  | .hbm, ⟨67, _⟩ => ⟨S_, .i32⟩
  | .hbm, ⟨68, _⟩ => ⟨S4194304, .i32⟩
  | .hbm, ⟨69, _⟩ => ⟨S4194304, .i1⟩
  | .hbm, ⟨70, _⟩ => ⟨S_, .i32⟩
  | .hbm, ⟨71, _⟩ => ⟨S4194304, .i32⟩
  | .hbm, ⟨72, _⟩ => ⟨S4194304, .i32⟩
  | .hbm, ⟨73, _⟩ => ⟨S4194304, .i32⟩
  | .hbm, ⟨74, _⟩ => ⟨S4194304x1, .i32⟩
  | .hbm, ⟨75, _⟩ => ⟨S4194304, .f32⟩
  | .hbm, ⟨76, _⟩ => ⟨S_, .i32⟩
  | .hbm, ⟨77, _⟩ => ⟨S4194304, .i32⟩
  | .hbm, ⟨78, _⟩ => ⟨S4194304, .i1⟩
  | .hbm, ⟨79, _⟩ => ⟨S_, .i32⟩
  | .hbm, ⟨80, _⟩ => ⟨S4194304, .i32⟩
  | .hbm, ⟨81, _⟩ => ⟨S4194304, .i32⟩
  | .hbm, ⟨82, _⟩ => ⟨S4194304, .i32⟩
  | .hbm, ⟨83, _⟩ => ⟨S4194304x1, .i32⟩
  | .hbm, ⟨84, _⟩ => ⟨S4194304, .f32⟩
  | .hbm, ⟨85, _⟩ => ⟨S4194304, .f32⟩
  | .hbm, ⟨86, _⟩ => ⟨S4194304x1, .f32⟩
  | .hbm, ⟨87, _⟩ => ⟨S_, .i32⟩
  | .hbm, ⟨88, _⟩ => ⟨S4194304, .i32⟩
  | .hbm, ⟨89, _⟩ => ⟨S4194304, .i1⟩
  | .hbm, ⟨90, _⟩ => ⟨S_, .i32⟩
  | .hbm, ⟨91, _⟩ => ⟨S4194304, .i32⟩
  | .hbm, ⟨92, _⟩ => ⟨S4194304, .i32⟩
  | .hbm, ⟨93, _⟩ => ⟨S4194304, .i32⟩
  | .hbm, ⟨94, _⟩ => ⟨S4194304x1, .i32⟩
  | .hbm, ⟨95, _⟩ => ⟨S4194304x32, .f32⟩
  | .hbm, ⟨96, _⟩ => ⟨S4194304x32, .f32⟩
  | .hbm, ⟨97, _⟩ => ⟨S4194304x32, .f32⟩
  | .hbm, ⟨98, _⟩ => ⟨S_, .f32⟩
  | .hbm, ⟨99, _⟩ => ⟨S262144x32, .f32⟩
  | .hbm, ⟨100, _⟩ => ⟨S4194304x1, .i32⟩
  | .hbm, ⟨101, _⟩ => ⟨S262144x32, .f32⟩
  | .hbm, ⟨102, _⟩ => ⟨S_, .f32⟩
  | .hbm, ⟨103, _⟩ => ⟨S262144, .f32⟩
  | .hbm, ⟨104, _⟩ => ⟨S262144, .f32⟩
  | .hbm, ⟨105, _⟩ => ⟨S262144, .f32⟩
  | .hbm, ⟨106, _⟩ => ⟨S262144x1, .f32⟩
  | .hbm, ⟨107, _⟩ => ⟨S1x32, .f32⟩
  | .hbm, ⟨108, _⟩ => ⟨S262144x32, .f32⟩
  | .hbm, ⟨109, _⟩ => ⟨S_, .f32⟩
  | .hbm, ⟨110, _⟩ => ⟨S16384x32, .f32⟩
  | .hbm, ⟨111, _⟩ => ⟨S262144x1, .i32⟩
  | .hbm, ⟨112, _⟩ => ⟨S16384x32, .f32⟩
  | .hbm, ⟨113, _⟩ => ⟨S_, .f32⟩
  | .hbm, ⟨114, _⟩ => ⟨S262144, .f32⟩
  | .hbm, ⟨115, _⟩ => ⟨S_, .f32⟩
  | .hbm, ⟨116, _⟩ => ⟨S16384, .f32⟩
  | .hbm, ⟨117, _⟩ => ⟨S262144x1, .i32⟩
  | .hbm, ⟨118, _⟩ => ⟨S16384, .f32⟩
  | .hbm, ⟨119, _⟩ => ⟨S16384x1, .f32⟩
  | .hbm, ⟨120, _⟩ => ⟨S1x26, .f32⟩
  | .hbm, ⟨121, _⟩ => ⟨S16384x26, .f32⟩
  | .local _ .vmem, ⟨0, _⟩ => ⟨S2048x3, .f32⟩
  | .local _ .vmem, ⟨1, _⟩ => ⟨S2048x3, .f32⟩
  | .local _ .vmem, ⟨2, _⟩ => ⟨S3x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S2048x16, .f32⟩
  | .local _ .vmem, ⟨8, _⟩ => ⟨S2048x16, .f32⟩
  | .local _ .vmem, ⟨9, _⟩ => ⟨S2048x1, .f32⟩
  | .local _ .vmem, ⟨10, _⟩ => ⟨S2048x1, .f32⟩
  | .local _ .vmem, ⟨11, _⟩ => ⟨S1x16, .f32⟩
  | .local _ .vmem, ⟨12, _⟩ => ⟨S2048x16, .f32⟩
  | .local _ .vmem, ⟨13, _⟩ => ⟨S2048x16, .f32⟩
  | .local _ .vmem, ⟨14, _⟩ => ⟨S2048x16, .f32⟩
  | .local _ .vmem, ⟨15, _⟩ => ⟨S2048x16, .f32⟩
  | .local _ .vmem, ⟨16, _⟩ => ⟨S16x32, .f32⟩
  | .local _ .vmem, ⟨17, _⟩ => ⟨S2048x32, .f32⟩
  | .local _ .vmem, ⟨18, _⟩ => ⟨S2048x32, .f32⟩
  | .local _ .vmem, ⟨19, _⟩ => ⟨S2048x32, .f32⟩
  | .local _ .vmem, ⟨20, _⟩ => ⟨S2048x32, .f32⟩
  | .local _ .vmem, ⟨21, _⟩ => ⟨S2048x32, .f32⟩
  | .local _ .vmem, ⟨22, _⟩ => ⟨S2048x32, .f32⟩
  | .local _ .vmem, ⟨23, _⟩ => ⟨S2048x1, .f32⟩
  | .local _ .vmem, ⟨24, _⟩ => ⟨S2048x1, .f32⟩
  | .local _ .vmem, ⟨25, _⟩ => ⟨S1x32, .f32⟩
  | .local _ .vmem, ⟨26, _⟩ => ⟨S2048x32, .f32⟩
  | .local _ .vmem, ⟨27, _⟩ => ⟨S2048x32, .f32⟩
  | .local _ .vmem, ⟨28, _⟩ => ⟨S4096x32, .f32⟩
  | .local _ .vmem, ⟨29, _⟩ => ⟨S4096x32, .f32⟩
  | .local _ .vmem, ⟨30, _⟩ => ⟨S4096x1, .f32⟩
  | .local _ .vmem, ⟨31, _⟩ => ⟨S4096x1, .f32⟩
  | .local _ .vmem, ⟨32, _⟩ => ⟨S32x26, .f32⟩
  | .local _ .vmem, ⟨33, _⟩ => ⟨S1x26, .f32⟩
  | .local _ .vmem, ⟨34, _⟩ => ⟨S4096x26, .f32⟩
  | .local _ .vmem, ⟨35, _⟩ => ⟨S4096x26, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_v54 : Ref sig .tc := ⟨.hbm, 77, rfl⟩
abbrev main_v55 : Ref sig .tc := ⟨.hbm, 78, rfl⟩
abbrev main_c_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_13 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_18 : Ref sig .tc := ⟨.hbm, 113, rfl⟩
abbrev main_v84 : Ref sig .tc := ⟨.hbm, 114, rfl⟩
abbrev main_cst_19 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![128], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x26 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x26 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4096x26 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S_S262144 : S_.BroadcastsInDim S262144 (![] : Fin 0 → Fin S262144.rank)
  bcast_S4194304_S4194304x1_0 : S4194304.BroadcastsInDim S4194304x1 (![0] : Fin 1 → Fin S4194304x1.rank)
  inb_S2048x3_S2048x3_0_0 : ∀ a, (![0, 0] : Fin 2 → Nat) a + S2048x3.size a ≤ S2048x3.size a
  h_S2048x3 : 0 < S2048x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S2048x16_S2048x16_0_0 : ∀ a, (![0, 0] : Fin 2 → Nat) a + S2048x16.size a ≤ S2048x16.size a
  h_S2048x16 : 0 < S2048x16.numel
  bcast_S4194304x1_S4194304x16_0_1 : S4194304x1.BroadcastsInDim S4194304x16 (![0, 1] : Fin 2 → Fin S4194304x16.rank)
  bcast_S_S262144x16 : S_.BroadcastsInDim S262144x16 (![] : Fin 0 → Fin S262144x16.rank)
  shapeCasts_S262144_S262144x1 : S262144.ShapeCasts S262144x1
  shapeCasts_S16_S1x16 : S16.ShapeCasts S1x16
  shapeCasts_S2048x16_S2048x16 : S2048x16.ShapeCasts S2048x16
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x16 : S2048x1.Broadcasts S2048x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x32_S16x32_0_0 : ∀ a, (![0, 0] : Fin 2 → Nat) a + S16x32.size a ≤ S16x32.size a
  h_S16x32 : 0 < S16x32.numel
  inb_S2048x32_S2048x32_0_0 : ∀ a, (![0, 0] : Fin 2 → Nat) a + S2048x32.size a ≤ S2048x32.size a
  h_S2048x32 : 0 < S2048x32.numel
  bcast_S4194304x1_S4194304x32_0_1 : S4194304x1.BroadcastsInDim S4194304x32 (![0, 1] : Fin 2 → Fin S4194304x32.rank)
  bcast_S_S262144x32 : S_.BroadcastsInDim S262144x32 (![] : Fin 0 → Fin S262144x32.rank)
  shapeCasts_S32_S1x32 : S32.ShapeCasts S1x32
  shapeCasts_S2048x32_S2048x32 : S2048x32.ShapeCasts S2048x32
  broadcasts_S2048x1_S2048x32 : S2048x1.Broadcasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  bcast_S_S16384x32 : S_.BroadcastsInDim S16384x32 (![] : Fin 0 → Fin S16384x32.rank)
  bcast_S262144_S262144x1_0 : S262144.BroadcastsInDim S262144x1 (![0] : Fin 1 → Fin S262144x1.rank)
  bcast_S_S16384 : S_.BroadcastsInDim S16384 (![] : Fin 0 → Fin S16384.rank)
  shapeCasts_S16384_S16384x1 : S16384.ShapeCasts S16384x1
  shapeCasts_S26_S1x26 : S26.ShapeCasts S1x26
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  broadcasts_S4096x1_S4096x32 : S4096x1.Broadcasts S4096x32
  inb_S32x26_S32x26_0_0 : ∀ a, (![0, 0] : Fin 2 → Nat) a + S32x26.size a ≤ S32x26.size a
  h_S32x26 : 0 < S32x26.numel
  inb_S1x26_S1x26_0_0 : ∀ a, (![0, 0] : Fin 2 → Nat) a + S1x26.size a ≤ S1x26.size a
  h_S1x26 : 0 < S1x26.numel
  shapeCasts_S1x26_S1x26 : S1x26.ShapeCasts S1x26
  broadcasts_S1x26_S4096x26 : S1x26.Broadcasts S4096x26
  inb_S4096x26_S4096x26_0_0 : ∀ a, (![0, 0] : Fin 2 → Nat) a + S4096x26.size a ≤ S4096x26.size a
  h_S4096x26 : 0 < S4096x26.numel
  scatter_S262144_S4194304x1_S4194304_n_0_0_1_wf : ScatterDims.WF S262144 S4194304x1 S4194304 [] [0] [0] 1
  dot_S2048x3_S3x16_S2048x16_1_0_0_1_n_n_wf : DotDims.WF S2048x3 S3x16 S2048x16 [1] [0] [0] [1] [] []
  gather_S262144_S4194304x1_S4194304_n_0_n_n_0_1_1_wf : GatherDims.WF S262144 S4194304x1 S4194304 [] [0] [] [0] [] 1 ![1]
  gather_S262144x16_S4194304x1_S4194304x16_1_0_n_n_0_1_116_wf : GatherDims.WF S262144x16 S4194304x1 S4194304x16 [1] [0] [] [0] [] 1 ![1, 16]
  scatter_S262144x16_S4194304x1_S4194304x16_1_0_0_1_wf : ScatterDims.WF S262144x16 S4194304x1 S4194304x16 [1] [0] [0] 1
  dot_S2048x16_S16x32_S2048x32_1_0_0_1_n_n_wf : DotDims.WF S2048x16 S16x32 S2048x32 [1] [0] [0] [1] [] []
  gather_S262144x32_S4194304x1_S4194304x32_1_0_n_n_0_1_132_wf : GatherDims.WF S262144x32 S4194304x1 S4194304x32 [1] [0] [] [0] [] 1 ![1, 32]
  scatter_S262144x32_S4194304x1_S4194304x32_1_0_0_1_wf : ScatterDims.WF S262144x32 S4194304x1 S4194304x32 [1] [0] [0] 1
  scatter_S16384x32_S262144x1_S262144x32_1_0_0_1_wf : ScatterDims.WF S16384x32 S262144x1 S262144x32 [1] [0] [0] 1
  scatter_S16384_S262144x1_S262144_n_0_0_1_wf : ScatterDims.WF S16384 S262144x1 S262144 [] [0] [0] 1
  dot_S4096x32_S32x26_S4096x26_1_0_0_1_n_n_wf : DotDims.WF S4096x32 S32x26 S4096x26 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S262144x3.size a
  hwx0_0 : ∀ i : grid0.Coords, EltTy.bits .f32 = 32 ∨ (Rect.block (s := S262144x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S262144x16.size a
  hwx0_2 : ∀ i : grid0.Coords, EltTy.bits .f32 = 32 ∨ (Rect.block (s := S262144x16) S2048x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x16.size a ≤ S262144x16.size a
  hwx1_0 : ∀ i : grid1.Coords, EltTy.bits .f32 = 32 ∨ (Rect.block (s := S262144x16) S2048x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S262144x16.size a
  hwx1_1 : ∀ i : grid1.Coords, EltTy.bits .f32 = 32 ∨ (Rect.block (s := S262144x16) S2048x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S262144x1.size a
  hwx1_2 : ∀ i : grid1.Coords, EltTy.bits .f32 = 32 ∨ (Rect.block (s := S262144x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x16.size a ≤ S262144x16.size a
  hwx1_4 : ∀ i : grid1.Coords, EltTy.bits .f32 = 32 ∨ (Rect.block (s := S262144x16) S2048x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x16.size a ≤ S262144x16.size a
  hwx2_0 : ∀ i : grid2.Coords, EltTy.bits .f32 = 32 ∨ (Rect.block (s := S262144x16) S2048x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x32.size a ≤ S262144x32.size a
  hwx2_2 : ∀ i : grid2.Coords, EltTy.bits .f32 = 32 ∨ (Rect.block (s := S262144x32) S2048x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x32.size a ≤ S262144x32.size a
  hwx3_0 : ∀ i : grid3.Coords, EltTy.bits .f32 = 32 ∨ (Rect.block (s := S262144x32) S2048x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x32.size a ≤ S262144x32.size a
  hwx3_1 : ∀ i : grid3.Coords, EltTy.bits .f32 = 32 ∨ (Rect.block (s := S262144x32) S2048x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S262144x1.size a
  hwx3_2 : ∀ i : grid3.Coords, EltTy.bits .f32 = 32 ∨ (Rect.block (s := S262144x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x32.size a ≤ S262144x32.size a
  hwx3_4 : ∀ i : grid3.Coords, EltTy.bits .f32 = 32 ∨ (Rect.block (s := S262144x32) S2048x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x32.size a ≤ S16384x32.size a
  hwx4_0 : ∀ i : grid4.Coords, EltTy.bits .f32 = 32 ∨ (Rect.block (s := S16384x32) S4096x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S16384x1.size a
  hwx4_1 : ∀ i : grid4.Coords, EltTy.bits .f32 = 32 ∨ (Rect.block (s := S16384x1) S4096x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x26.size a ≤ S32x26.size a
  hwx4_2 : ∀ i : grid4.Coords, EltTy.bits .f32 = 32 ∨ (Rect.block (s := S32x26) S32x26.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x26.size a ≤ S1x26.size a
  hwx4_3 : ∀ i : grid4.Coords, EltTy.bits .f32 = 32 ∨ (Rect.block (s := S1x26) S1x26.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x26.size a ≤ S16384x26.size a
  hwx4_4 : ∀ i : grid4.Coords, EltTy.bits .f32 = 32 ∨ (Rect.block (s := S16384x26) S4096x26.size (cc4_transform_4 i) (hinb4_4 i)).WholeWords (EltTy.packing .f32)

variable [Facts₀]

def scatter_S262144_S4194304x1_S4194304_n_0_0_1 : ScatterDims S262144 S4194304x1 S4194304 where
  updateWindowDims := []
  insertedWindowDims := [0]
  scatterDimsToOperandDims := [0]
  indexVectorDim := 1
  wf := scatter_S262144_S4194304x1_S4194304_n_0_0_1_wf
def dot_S2048x3_S3x16_S2048x16_1_0_0_1_n_n : DotDims S2048x3 S3x16 S2048x16 where
  lhsContracting := [1]
  rhsContracting := [0]
  lhsNonContracting := [0]
  rhsNonContracting := [1]
  lhsBatch := []
  rhsBatch := []
  wf := dot_S2048x3_S3x16_S2048x16_1_0_0_1_n_n_wf
def gather_S262144_S4194304x1_S4194304_n_0_n_n_0_1_1 : GatherDims S262144 S4194304x1 S4194304 where
  offsetDims := []
  collapsedSliceDims := [0]
  operandBatchingDims := []
  startIndicesBatchingDims := []
  startIndexMap := [0]
  indexVectorDim := 1
  sliceSizes := ![1]
  wf := gather_S262144_S4194304x1_S4194304_n_0_n_n_0_1_1_wf
def gather_S262144x16_S4194304x1_S4194304x16_1_0_n_n_0_1_116 : GatherDims S262144x16 S4194304x1 S4194304x16 where
  offsetDims := [1]
  collapsedSliceDims := [0]
  operandBatchingDims := []
  startIndicesBatchingDims := []
  startIndexMap := [0]
  indexVectorDim := 1
  sliceSizes := ![1, 16]
  wf := gather_S262144x16_S4194304x1_S4194304x16_1_0_n_n_0_1_116_wf
def scatter_S262144x16_S4194304x1_S4194304x16_1_0_0_1 : ScatterDims S262144x16 S4194304x1 S4194304x16 where
  updateWindowDims := [1]
  insertedWindowDims := [0]
  scatterDimsToOperandDims := [0]
  indexVectorDim := 1
  wf := scatter_S262144x16_S4194304x1_S4194304x16_1_0_0_1_wf
def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def gather_S262144x32_S4194304x1_S4194304x32_1_0_n_n_0_1_132 : GatherDims S262144x32 S4194304x1 S4194304x32 where
  offsetDims := [1]
  collapsedSliceDims := [0]
  operandBatchingDims := []
  startIndicesBatchingDims := []
  startIndexMap := [0]
  indexVectorDim := 1
  sliceSizes := ![1, 32]
  wf := gather_S262144x32_S4194304x1_S4194304x32_1_0_n_n_0_1_132_wf
def scatter_S262144x32_S4194304x1_S4194304x32_1_0_0_1 : ScatterDims S262144x32 S4194304x1 S4194304x32 where
  updateWindowDims := [1]
  insertedWindowDims := [0]
  scatterDimsToOperandDims := [0]
  indexVectorDim := 1
  wf := scatter_S262144x32_S4194304x1_S4194304x32_1_0_0_1_wf
def scatter_S16384x32_S262144x1_S262144x32_1_0_0_1 : ScatterDims S16384x32 S262144x1 S262144x32 where
  updateWindowDims := [1]
  insertedWindowDims := [0]
  scatterDimsToOperandDims := [0]
  indexVectorDim := 1
  wf := scatter_S16384x32_S262144x1_S262144x32_1_0_0_1_wf
def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def dot_S4096x32_S32x26_S4096x26_1_0_0_1_n_n : DotDims S4096x32 S32x26 S4096x26 where
  lhsContracting := [1]
  rhsContracting := [0]
  lhsNonContracting := [0]
  rhsNonContracting := [1]
  lhsBatch := []
  rhsBatch := []
  wf := dot_S4096x32_S32x26_S4096x26_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S2048x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S2048x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S2048x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2048x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2048x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S2048x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S2048x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v83) S4096x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S32x26.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x26.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S4096x26.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S262144x3 : Shape := ⟨2, ![262144, 3]⟩
abbrev S2x4194304 : Shape := ⟨2, ![2, 4194304]⟩
abbrev S262144 : Shape := ⟨1, ![262144]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x26 : Shape := ⟨2, ![32, 26]⟩
abbrev S26 : Shape := ⟨1, ![26]⟩
abbrev S1x4194304 : Shape := ⟨2, ![1, 4194304]⟩
abbrev S4194304 : Shape := ⟨1, ![4194304]⟩
abbrev S262144x16 : Shape := ⟨2, ![262144, 16]⟩
abbrev S_ : Shape := ⟨0, ![]⟩
abbrev S4194304x1 : Shape := ⟨2, ![4194304, 1]⟩
abbrev S4194304x16 : Shape := ⟨2, ![4194304, 16]⟩
abbrev S262144x1 : Shape := ⟨2, ![262144, 1]⟩
abbrev S1x16 : Shape := ⟨2, ![1, 16]⟩
abbrev S262144x32 : Shape := ⟨2, ![262144, 32]⟩
abbrev S4194304x32 : Shape := ⟨2, ![4194304, 32]⟩
abbrev S1x32 : Shape := ⟨2, ![1, 32]⟩
abbrev S16384x32 : Shape := ⟨2, ![16384, 32]⟩
abbrev S16384 : Shape := ⟨1, ![16384]⟩
abbrev S16384x1 : Shape := ⟨2, ![16384, 1]⟩
abbrev S16384x26 : Shape := ⟨2, ![16384, 26]⟩
abbrev S1x26 : Shape := ⟨2, ![1, 26]⟩

abbrev nBuf : Space → Nat
  | .hbm => 153
  | .vmem => 0
  | .smem => 0
  | _ => 0

abbrev hbmTy0_0 (i : Nat) : BufTy := match i % 128 with
  | 0 => ⟨S262144x3, .f32⟩
  | 1 => ⟨S2x4194304, .i32⟩
  | 2 => ⟨S262144, .i32⟩
  | 3 => ⟨S3x16, .f32⟩
  | 4 => ⟨S16, .f32⟩
  | 5 => ⟨S16x32, .f32⟩
  | 6 => ⟨S32, .f32⟩
  | 7 => ⟨S32x26, .f32⟩
  | 8 => ⟨S26, .f32⟩
  | 9 => ⟨S1x4194304, .i32⟩
  | 10 => ⟨S4194304, .i32⟩
  | 11 => ⟨S1x4194304, .i32⟩
  | 12 => ⟨S4194304, .i32⟩
  | 13 => ⟨S262144x16, .f32⟩
  | 14 => ⟨S_, .f32⟩
  | 15 => ⟨S4194304, .f32⟩
  | 16 => ⟨S_, .f32⟩
  | 17 => ⟨S262144, .f32⟩
  | 18 => ⟨S4194304x1, .i32⟩
  | 19 => ⟨S262144, .f32⟩
  | 20 => ⟨S_, .f32⟩
  | 21 => ⟨S262144, .f32⟩
  | 22 => ⟨S262144, .f32⟩
  | 23 => ⟨S262144, .f32⟩
  | 24 => ⟨S_, .i32⟩
  | 25 => ⟨S4194304, .i32⟩
  | 26 => ⟨S4194304, .i1⟩
  | 27 => ⟨S_, .i32⟩
  | 28 => ⟨S4194304, .i32⟩
  | 29 => ⟨S4194304, .i32⟩
  | 30 => ⟨S4194304, .i32⟩
  | 31 => ⟨S4194304x1, .i32⟩
  | 32 => ⟨S4194304, .f32⟩
  | 33 => ⟨S_, .i32⟩
  | 34 => ⟨S4194304, .i32⟩
  | 35 => ⟨S4194304, .i1⟩
  | 36 => ⟨S_, .i32⟩
  | 37 => ⟨S4194304, .i32⟩
  | 38 => ⟨S4194304, .i32⟩
  | 39 => ⟨S4194304, .i32⟩
  | 40 => ⟨S4194304x1, .i32⟩
  | 41 => ⟨S4194304, .f32⟩
  | 42 => ⟨S4194304, .f32⟩
  | 43 => ⟨S4194304x1, .f32⟩
  | 44 => ⟨S_, .i32⟩
  | 45 => ⟨S4194304, .i32⟩
  | 46 => ⟨S4194304, .i1⟩
  | 47 => ⟨S_, .i32⟩
  | 48 => ⟨S4194304, .i32⟩
  | 49 => ⟨S4194304, .i32⟩
  | 50 => ⟨S4194304, .i32⟩
  | 51 => ⟨S4194304x1, .i32⟩
  | 52 => ⟨S4194304x16, .f32⟩
  | 53 => ⟨S4194304x16, .f32⟩
  | 54 => ⟨S4194304x16, .f32⟩
  | 55 => ⟨S_, .f32⟩
  | 56 => ⟨S262144x16, .f32⟩
  | 57 => ⟨S4194304x1, .i32⟩
  | 58 => ⟨S262144x16, .f32⟩
  | 59 => ⟨S_, .f32⟩
  | 60 => ⟨S262144, .f32⟩
  | 61 => ⟨S262144, .f32⟩
  | 62 => ⟨S262144, .f32⟩
  | 63 => ⟨S262144x1, .f32⟩
  | 64 => ⟨S262144x16, .f32⟩
  | 65 => ⟨S262144x16, .f32⟩
  | 66 => ⟨S262144x16, .f32⟩
  | 67 => ⟨S1x16, .f32⟩
  | 68 => ⟨S262144x16, .f32⟩
  | 69 => ⟨S262144x16, .f32⟩
  | 70 => ⟨S_, .f32⟩
  | 71 => ⟨S262144x16, .f32⟩
  | 72 => ⟨S262144x16, .f32⟩
  | 73 => ⟨S262144x32, .f32⟩
  | 74 => ⟨S_, .f32⟩
  | 75 => ⟨S4194304, .f32⟩
  | 76 => ⟨S_, .f32⟩
  | 77 => ⟨S262144, .f32⟩
  | 78 => ⟨S4194304x1, .i32⟩
  | 79 => ⟨S262144, .f32⟩
  | 80 => ⟨S_, .f32⟩
  | 81 => ⟨S262144, .f32⟩
  | 82 => ⟨S262144, .f32⟩
  | 83 => ⟨S262144, .f32⟩
  | 84 => ⟨S_, .i32⟩
  | 85 => ⟨S4194304, .i32⟩
  | 86 => ⟨S4194304, .i1⟩
  | 87 => ⟨S_, .i32⟩
  | 88 => ⟨S4194304, .i32⟩
  | 89 => ⟨S4194304, .i32⟩
  | 90 => ⟨S4194304, .i32⟩
  | 91 => ⟨S4194304x1, .i32⟩
  | 92 => ⟨S4194304, .f32⟩
  | 93 => ⟨S_, .i32⟩
  | 94 => ⟨S4194304, .i32⟩
  | 95 => ⟨S4194304, .i1⟩
  | 96 => ⟨S_, .i32⟩
  | 97 => ⟨S4194304, .i32⟩
  | 98 => ⟨S4194304, .i32⟩
  | 99 => ⟨S4194304, .i32⟩
  | 100 => ⟨S4194304x1, .i32⟩
  | 101 => ⟨S4194304, .f32⟩
  | 102 => ⟨S4194304, .f32⟩
  | 103 => ⟨S4194304x1, .f32⟩
  | 104 => ⟨S_, .i32⟩
  | 105 => ⟨S4194304, .i32⟩
  | 106 => ⟨S4194304, .i1⟩
  | 107 => ⟨S_, .i32⟩
  | 108 => ⟨S4194304, .i32⟩
  | 109 => ⟨S4194304, .i32⟩
  | 110 => ⟨S4194304, .i32⟩
  | 111 => ⟨S4194304x1, .i32⟩
  | 112 => ⟨S4194304x32, .f32⟩
  | 113 => ⟨S4194304x32, .f32⟩
  | 114 => ⟨S4194304x32, .f32⟩
  | 115 => ⟨S_, .f32⟩
  | 116 => ⟨S262144x32, .f32⟩
  | 117 => ⟨S4194304x1, .i32⟩
  | 118 => ⟨S262144x32, .f32⟩
  | 119 => ⟨S_, .f32⟩
  | 120 => ⟨S262144, .f32⟩
  | 121 => ⟨S262144, .f32⟩
  | 122 => ⟨S262144, .f32⟩
  | 123 => ⟨S262144x1, .f32⟩
  | 124 => ⟨S262144x32, .f32⟩
  | 125 => ⟨S262144x32, .f32⟩
  | 126 => ⟨S262144x32, .f32⟩
  | 127 => ⟨S1x32, .f32⟩
  | _ => ⟨S262144x3, .f32⟩

abbrev hbmTy0_1 (i : Nat) : BufTy := match i % 128 with
  | 0 => ⟨S262144x32, .f32⟩
  | 1 => ⟨S262144x32, .f32⟩
  | 2 => ⟨S_, .f32⟩
  | 3 => ⟨S262144x32, .f32⟩
  | 4 => ⟨S262144x32, .f32⟩
  | 5 => ⟨S_, .f32⟩
  | 6 => ⟨S16384x32, .f32⟩
  | 7 => ⟨S262144x1, .i32⟩
  | 8 => ⟨S16384x32, .f32⟩
  | 9 => ⟨S_, .f32⟩
  | 10 => ⟨S262144, .f32⟩
  | 11 => ⟨S_, .f32⟩
  | 12 => ⟨S16384, .f32⟩
  | 13 => ⟨S262144x1, .i32⟩
  | 14 => ⟨S16384, .f32⟩
  | 15 => ⟨S_, .f32⟩
  | 16 => ⟨S16384, .f32⟩
  | 17 => ⟨S16384, .f32⟩
  | 18 => ⟨S16384x1, .f32⟩
  | 19 => ⟨S16384x32, .f32⟩
  | 20 => ⟨S16384x32, .f32⟩
  | 21 => ⟨S16384x26, .f32⟩
  | 22 => ⟨S1x26, .f32⟩
  | 23 => ⟨S16384x26, .f32⟩
  | 24 => ⟨S16384x26, .f32⟩
  | _ => ⟨S262144x3, .f32⟩

abbrev hbmTy (i : Nat) : BufTy := match i / 128 with
  | 0 => hbmTy0_0 i
  | 1 => hbmTy0_1 i
  | _ => ⟨S262144x3, .f32⟩

abbrev bufTy : (tb : Table) → Fin (tcTables nBuf tb) → BufTy
  | .hbm, ⟨i, _⟩ => hbmTy i
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call0_cst : Ref sig .tc := ⟨.hbm, 70, rfl⟩
abbrev main_call0_v0 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call1_cst : Ref sig .tc := ⟨.hbm, 130, rfl⟩
abbrev main_call1_v0 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩

abbrev nD : Nat := 1
abbrev τ : Topo := Topo.v7x

variable {F : FTy → Type} [FloatOps F]

class Facts₀ : Prop where
  slices_S2x4194304_S1x4194304_0_0 : S2x4194304.Slices ![0, 0] S1x4194304
  shapeCasts_S1x4194304_S4194304 : S1x4194304.ShapeCasts S4194304
  slices_S2x4194304_S1x4194304_1_0 : S2x4194304.Slices ![1, 0] S1x4194304
  bcast_S_S4194304 : S_.BroadcastsInDim S4194304 (![] : Fin 0 → Fin S4194304.rank)
  bcast_S_S262144 : S_.BroadcastsInDim S262144 (![] : Fin 0 → Fin S262144.rank)
  bcast_S4194304_S4194304x1_0 : S4194304.BroadcastsInDim S4194304x1 (![0] : Fin 1 → Fin S4194304x1.rank)
  bcast_S4194304x1_S4194304x16_0_1 : S4194304x1.BroadcastsInDim S4194304x16 (![0, 1] : Fin 2 → Fin S4194304x16.rank)
  bcast_S_S262144x16 : S_.BroadcastsInDim S262144x16 (![] : Fin 0 → Fin S262144x16.rank)
  bcast_S262144_S262144x1_0 : S262144.BroadcastsInDim S262144x1 (![0] : Fin 1 → Fin S262144x1.rank)
  bcast_S262144x1_S262144x16_0_1 : S262144x1.BroadcastsInDim S262144x16 (![0, 1] : Fin 2 → Fin S262144x16.rank)
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S4194304x1_S4194304x32_0_1 : S4194304x1.BroadcastsInDim S4194304x32 (![0, 1] : Fin 2 → Fin S4194304x32.rank)
  bcast_S_S262144x32 : S_.BroadcastsInDim S262144x32 (![] : Fin 0 → Fin S262144x32.rank)
  bcast_S262144x1_S262144x32_0_1 : S262144x1.BroadcastsInDim S262144x32 (![0, 1] : Fin 2 → Fin S262144x32.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S16384x32 : S_.BroadcastsInDim S16384x32 (![] : Fin 0 → Fin S16384x32.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  dot_S262144x3_S3x16_S262144x16_1_0_0_1_n_n_wf : DotDims.WF S262144x3 S3x16 S262144x16 [1] [0] [0] [1] [] []
  scatter_S262144_S4194304x1_S4194304_n_0_0_1_wf : ScatterDims.WF S262144 S4194304x1 S4194304 [] [0] [0] 1
  gather_S262144_S4194304x1_S4194304_n_0_n_n_0_1_1_wf : GatherDims.WF S262144 S4194304x1 S4194304 [] [0] [] [0] [] 1 ![1]
  gather_S262144x16_S4194304x1_S4194304x16_1_0_n_n_0_1_116_wf : GatherDims.WF S262144x16 S4194304x1 S4194304x16 [1] [0] [] [0] [] 1 ![1, 16]
  scatter_S262144x16_S4194304x1_S4194304x16_1_0_0_1_wf : ScatterDims.WF S262144x16 S4194304x1 S4194304x16 [1] [0] [0] 1
  dot_S262144x16_S16x32_S262144x32_1_0_0_1_n_n_wf : DotDims.WF S262144x16 S16x32 S262144x32 [1] [0] [0] [1] [] []
  gather_S262144x32_S4194304x1_S4194304x32_1_0_n_n_0_1_132_wf : GatherDims.WF S262144x32 S4194304x1 S4194304x32 [1] [0] [] [0] [] 1 ![1, 32]
  scatter_S262144x32_S4194304x1_S4194304x32_1_0_0_1_wf : ScatterDims.WF S262144x32 S4194304x1 S4194304x32 [1] [0] [0] 1
  scatter_S16384x32_S262144x1_S262144x32_1_0_0_1_wf : ScatterDims.WF S16384x32 S262144x1 S262144x32 [1] [0] [0] 1
  scatter_S16384_S262144x1_S262144_n_0_0_1_wf : ScatterDims.WF S16384 S262144x1 S262144 [] [0] [0] 1
  dot_S16384x32_S32x26_S16384x26_1_0_0_1_n_n_wf : DotDims.WF S16384x32 S32x26 S16384x26 [1] [0] [0] [1] [] []

variable [Facts₀]

def dot_S262144x3_S3x16_S262144x16_1_0_0_1_n_n : DotDims S262144x3 S3x16 S262144x16 where
  lhsContracting := [1]
  rhsContracting := [0]
  lhsNonContracting := [0]
  rhsNonContracting := [1]
  lhsBatch := []
  rhsBatch := []
  wf := dot_S262144x3_S3x16_S262144x16_1_0_0_1_n_n_wf
def scatter_S262144_S4194304x1_S4194304_n_0_0_1 : ScatterDims S262144 S4194304x1 S4194304 where
  updateWindowDims := []
  insertedWindowDims := [0]
  scatterDimsToOperandDims := [0]
  indexVectorDim := 1
  wf := scatter_S262144_S4194304x1_S4194304_n_0_0_1_wf
def gather_S262144_S4194304x1_S4194304_n_0_n_n_0_1_1 : GatherDims S262144 S4194304x1 S4194304 where
  offsetDims := []
  collapsedSliceDims := [0]
  operandBatchingDims := []
  startIndicesBatchingDims := []
  startIndexMap := [0]
  indexVectorDim := 1
  sliceSizes := ![1]
  wf := gather_S262144_S4194304x1_S4194304_n_0_n_n_0_1_1_wf
def gather_S262144x16_S4194304x1_S4194304x16_1_0_n_n_0_1_116 : GatherDims S262144x16 S4194304x1 S4194304x16 where
  offsetDims := [1]
  collapsedSliceDims := [0]
  operandBatchingDims := []
  startIndicesBatchingDims := []
  startIndexMap := [0]
  indexVectorDim := 1
  sliceSizes := ![1, 16]
  wf := gather_S262144x16_S4194304x1_S4194304x16_1_0_n_n_0_1_116_wf
def scatter_S262144x16_S4194304x1_S4194304x16_1_0_0_1 : ScatterDims S262144x16 S4194304x1 S4194304x16 where
  updateWindowDims := [1]
  insertedWindowDims := [0]
  scatterDimsToOperandDims := [0]
  indexVectorDim := 1
  wf := scatter_S262144x16_S4194304x1_S4194304x16_1_0_0_1_wf
def dot_S262144x16_S16x32_S262144x32_1_0_0_1_n_n : DotDims S262144x16 S16x32 S262144x32 where
  lhsContracting := [1]
  rhsContracting := [0]
  lhsNonContracting := [0]
  rhsNonContracting := [1]
  lhsBatch := []
  rhsBatch := []
  wf := dot_S262144x16_S16x32_S262144x32_1_0_0_1_n_n_wf
def gather_S262144x32_S4194304x1_S4194304x32_1_0_n_n_0_1_132 : GatherDims S262144x32 S4194304x1 S4194304x32 where
  offsetDims := [1]
  collapsedSliceDims := [0]
  operandBatchingDims := []
  startIndicesBatchingDims := []
  startIndexMap := [0]
  indexVectorDim := 1
  sliceSizes := ![1, 32]
  wf := gather_S262144x32_S4194304x1_S4194304x32_1_0_n_n_0_1_132_wf
def scatter_S262144x32_S4194304x1_S4194304x32_1_0_0_1 : ScatterDims S262144x32 S4194304x1 S4194304x32 where
  updateWindowDims := [1]
  insertedWindowDims := [0]
  scatterDimsToOperandDims := [0]
  indexVectorDim := 1
  wf := scatter_S262144x32_S4194304x1_S4194304x32_1_0_0_1_wf
def scatter_S16384x32_S262144x1_S262144x32_1_0_0_1 : ScatterDims S16384x32 S262144x1 S262144x32 where
  updateWindowDims := [1]
  insertedWindowDims := [0]
  scatterDimsToOperandDims := [0]
  indexVectorDim := 1
  wf := scatter_S16384x32_S262144x1_S262144x32_1_0_0_1_wf
def scatter_S16384_S262144x1_S262144_n_0_0_1 : ScatterDims S16384 S262144x1 S262144 where
  updateWindowDims := []
  insertedWindowDims := [0]
  scatterDimsToOperandDims := [0]
  indexVectorDim := 1
  wf := scatter_S16384_S262144x1_S262144_n_0_0_1_wf
def dot_S16384x32_S32x26_S16384x26_1_0_0_1_n_n : DotDims S16384x32 S32x26 S16384x26 where
  lhsContracting := [1]
  rhsContracting := [0]
  lhsNonContracting := [0]
  rhsNonContracting := [1]
  lhsBatch := []
  rhsBatch := []
  wf := dot_S16384x32_S32x26_S16384x26_1_0_0_1_n_n_wf

class Facts : Prop extends Facts₀ where

variable [Facts]
-- ==== Proof.KernelRun.lean ====
/-
  The kernel program's run with its result named.

  The program is nine segments: four stretches of host operations and five pallas_calls. The contents of every
  buffer at each segment boundary are a fold from the launch memory (a stretch applies its operations; a
  pallas_call leaves each of its arrays at what its write-backs leave and every other buffer as it was). Every weakly
  fair execution terminates with every unscoped buffer at the last boundary's contents: in particular the result
  buffer at the fold's value there, and the nine argument arrays as launched.
-/
import proofs.«158792_j40776419508499_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result buffer at the
    last boundary's contents and the arguments as launched. -/
theorem run : θ_run defs (onTc (τ := τ) (main (F := F))) ⟨m, fun _ => 0, ρ⟩ (fun r => ∀ c : Dev nD,
      r.2.mem ((c.tc : Thread nD τ).loc main_v90) = W9 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v90 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.ValueRun

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.Region0.lean ====
/-
  The first pallas_call: the node features times the first weight matrix, 2048 rows at a time.

  Grid point t stages rows 2048·t … 2048·t + 2047 of the [262144, 3] feature matrix and the whole [3, 16] weight
  matrix, and writes back the [2048, 16] product of the two (the change of float format before the product is the
  identity at exact arithmetic, the accumulator is zero). Entry (p, q) of that block is Σ_k x[2048·t + p, k] · w[k, q],
  which is entry (2048·t + p, q) of the host's product of the two whole matrices: every block is the restriction of
  ONE function of the arrays the region finds, and the 128 blocks tile the output, so the output array ends as that
  product.
-/
import proofs.«158792_j40776419508499_2_alg».proof.Proof.Gen.KernelIdeal.Frame
import proofs.«158792_j40776419508499_2_alg».proof.Proof.Gen.ReferenceIdeal.Read
import proofs.«158792_j40776419508499_2_alg».proof.Proof.LibMatmulIdx
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The block product's operand indices -/

theorem l0 (j : S2048x16.Idx) (k : dot_S2048x3_S3x16_S2048x16_1_0_0_1_n_n.contr.Idx) : (dot_S2048x3_S3x16_S2048x16_1_0_0_1_n_n.lhsIdx j k 0).val = (j 0).val := by
  unfold DotDims.lhsIdx
  rw [dif_neg (show ¬(0 : Fin S2048x3.rank) ∈ dot_S2048x3_S3x16_S2048x16_1_0_0_1_n_n.lhsBatch by decide), dif_pos (show (0 : Fin S2048x3.rank) ∈ dot_S2048x3_S3x16_S2048x16_1_0_0_1_n_n.lhsNonContracting by decide)]
  rfl
theorem l1 (j : S2048x16.Idx) (k : dot_S2048x3_S3x16_S2048x16_1_0_0_1_n_n.contr.Idx) : (dot_S2048x3_S3x16_S2048x16_1_0_0_1_n_n.lhsIdx j k 1).val = (k ⟨0, by decide⟩).val :=
  dot_S2048x3_S3x16_S2048x16_1_0_0_1_n_n.lhsIdx_val_of_single rfl j k
theorem r0 (j : S2048x16.Idx) (k : dot_S2048x3_S3x16_S2048x16_1_0_0_1_n_n.contr.Idx) : (dot_S2048x3_S3x16_S2048x16_1_0_0_1_n_n.rhsIdx j k 0).val = (k ⟨0, by decide⟩).val :=
  dot_S2048x3_S3x16_S2048x16_1_0_0_1_n_n.rhsIdx_val_of_single rfl j k
theorem r1 (j : S2048x16.Idx) (k : dot_S2048x3_S3x16_S2048x16_1_0_0_1_n_n.contr.Idx) : (dot_S2048x3_S3x16_S2048x16_1_0_0_1_n_n.rhsIdx j k 1).val = (j 1).val := by
  unfold DotDims.rhsIdx
  rw [dif_neg (show ¬(1 : Fin S3x16.rank) ∈ dot_S2048x3_S3x16_S2048x16_1_0_0_1_n_n.rhsBatch by decide), dif_pos (show (1 : Fin S3x16.rank) ∈ dot_S2048x3_S3x16_S2048x16_1_0_0_1_n_n.rhsNonContracting by decide)]
  rfl

/-- The body's one store, at entry (p, q) of the block: the row p of the staged features against column q of the
    staged weights. -/
theorem pay_apply (x0 : Vec Ideal S2048x3 .f32) (x1 : Vec Ideal S3x16 .f32) (p : Fin 2048) (q : Fin 16) :
    k0_pay1 x0 x1 (ix2 p q) = ∑ k : Fin 3, x0 (ix2 p k) * x1 (ix2 k q) := by
  unfold k0_pay1
  exact LibMatmulIdx.matmul2_apply dot_S2048x3_S3x16_S2048x16_1_0_0_1_n_n rfl rfl l0 l1 r0 r1 none x0 x1 (ix2 p q)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three index maps over the 128 grid points: the feature block and the output block are block t along the
    rows, the weight block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two whole matrices the region finds. -/
theorem flushed_eq (c : Dev nD) (t : Fin cfg0.N) :
    (dat0 V c).flushed 2 t = ((cfg0.win 2).blk t).view.read (Elt Ideal)
      (Cert.ReferenceIdeal.Read.val_main_v4 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S2048x3) hz, View.ld_unit_zero (S := S3x16) hz]
  obtain ⟨e0, e1, e2, e3, e4, e5⟩ := idx_facts t
  funext j
  obtain ⟨p, q, rfl⟩ : ∃ (p : Fin 2048) (q : Fin 16), j = ix2 p q := ⟨j 0, j 1, eq_ix2 j⟩
  show k0_pay1 (iblk0 V c 0 t) (iblk0 V c 1 t) (ix2 p q)
    = Cert.ReferenceIdeal.Read.val_main_v4 (F := Ideal) (V c main_arg0) (V c main_arg3) (((cfg0.win 2).blk t).view.emb (ix2 p q))
  rw [pay_apply, Cert.ReferenceIdeal.Read.val_main_v4_apply]
  have key : ∀ (X : S262144x3.Idx → EReal) (W : S3x16.Idx → EReal),
      (∑ k : Fin 3, X (((cfg0.win 0).blk t).view.emb (ix2 p k)) * W (((cfg0.win 1).blk t).view.emb (ix2 k q)))
        = ∑ k : Fin 3, X (Cert.ReferenceIdeal.Read.lidx_main_v4 (((cfg0.win 2).blk t).view.emb (ix2 p q)) k)
            * W (Cert.ReferenceIdeal.Read.ridx_main_v4 (((cfg0.win 2).blk t).view.emb (ix2 p q)) k) := by
    intro X W
    refine Finset.sum_congr rfl fun k _ => ?_
    have h0 : ((cfg0.win 0).blk t).view.emb (ix2 p k) = Cert.ReferenceIdeal.Read.lidx_main_v4 (((cfg0.win 2).blk t).view.emb (ix2 p q)) k := by
      funext a; apply Fin.ext
      match a with
      | ⟨0, _⟩ => show win0_0.index t (0 : Fin 2) * 2048 + 1 * p.val = win0_2.index t (0 : Fin 2) * 2048 + 1 * p.val; omega
      | ⟨1, _⟩ => show win0_0.index t (1 : Fin 2) * 3 + 1 * k.val = k.val; omega
    have h1 : ((cfg0.win 1).blk t).view.emb (ix2 k q) = Cert.ReferenceIdeal.Read.ridx_main_v4 (((cfg0.win 2).blk t).view.emb (ix2 p q)) k := by
      funext a; apply Fin.ext
      match a with
      | ⟨0, _⟩ => show win0_1.index t (0 : Fin 2) * 3 + 1 * k.val = k.val; omega
      | ⟨1, _⟩ => show win0_1.index t (1 : Fin 2) * 16 + 1 * q.val = win0_2.index t (1 : Fin 2) * 16 + 1 * q.val; omega
    rw [h0, h1]
  exact key (V c main_arg0) (V c main_arg3)

/-- An index of the output array is in point t's block iff each coordinate is in the block's range on its axis. -/
theorem mem_blk (t : Fin cfg0.N) (i : S262144x16.Idx) :
    i ∈ ((cfg0.win 2).blk t).view.set ↔ ∀ a : Fin 2, win0_2.index t a * S2048x16.size a ≤ (i a).val ∧ (i a).val < win0_2.index t a * S2048x16.size a + S2048x16.size a := by
  show i ∈ ((View.whole main_v11).slice (win0_2.rect t)).set ↔ _
  rw [View.set_slice_whole, Rect.mem_set_unit]
  exact Iff.rfl

/-- Row r of the output is in the block of point r / 2048: the 128 blocks tile the array. -/
theorem cover (i : S262144x16.Idx) : ∃ t : Fin cfg0.N, (cfg0.win 2).flush t = true ∧ i ∈ ((cfg0.win 2).blk t).view.set := by
  have hi0 : (i 0).val < 262144 := (i 0).isLt
  have hi1 : (i 1).val < 16 := (i 1).isLt
  refine ⟨⟨(i 0).val / 2048, by show (i 0).val / 2048 < 128; omega⟩, flush0_2 _, ?_⟩
  rw [mem_blk]
  obtain ⟨e0, e1, e2, e3, e4, e5⟩ := idx_facts ⟨(i 0).val / 2048, by show (i 0).val / 2048 < 128; omega⟩
  intro a
  match a with
  | ⟨0, _⟩ => show win0_2.index _ (0 : Fin 2) * 2048 ≤ (i 0).val ∧ (i 0).val < win0_2.index _ (0 : Fin 2) * 2048 + 2048; rw [e4]; show (i 0).val / 2048 * 2048 ≤ (i 0).val ∧ (i 0).val < (i 0).val / 2048 * 2048 + 2048; omega
  | ⟨1, _⟩ => show win0_2.index _ (1 : Fin 2) * 16 ≤ (i 1).val ∧ (i 1).val < win0_2.index _ (1 : Fin 2) * 16 + 16; rw [e5]; omega

/-- The output array after the region: the product of the two whole matrices as the region found them. -/
theorem final (c : Dev nD) :
    (dat0 V c).arrAt 2 cfg0.N = Cert.ReferenceIdeal.Read.val_main_v4 (F := Ideal) (V c main_arg0) (V c main_arg3) :=
  (dat0 V c).arrAt_eq_of_cover 2 _ (fun t _ => flushed_eq V c t) cover

end Cert.KernelIdeal.Region0

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«158792_j40776419508499_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.LibColumnInDim.lean ====
/-
  A vector placed as a column, and a column repeated along the rows' entries, both as `broadcast_in_dim`, read at an
  entry, for any element type.

  A vector of length n mapped onto axis 0 of the shape [n, 1] reads, at (r, 0), the vector's entry r. A column [a, 1]
  mapped onto axes (0, 1) of [a, b] reads, at (p, q), the column's entry p: the unit axis is the one repeated.
-/
import Idealize.ShloMosaic.Lib.ValueIdx
import Idealize.ShloMosaic.Lib.Pipeline.Value

noncomputable section

namespace LibColumnInDim

open Idealize.ShloMosaic Idealize.ShloMosaic.ValueIdx

variable {α : Type}

/-- [n] on axis 0 of [n, 1]: entry (r, z) is the vector's entry r. -/
theorem bcast_n_n1_apply {n : ℕ} (h : (⟨1, ![n]⟩ : Shape).BroadcastsInDim ⟨2, ![n, 1]⟩ (![0] : Fin 1 → Fin 2))
    (x : (⟨1, ![n]⟩ : Shape).Idx → α) (r : Fin n) (z : Fin 1) :
    broadcastInDim ⟨2, ![n, 1]⟩ (![0] : Fin 1 → Fin 2) h x (ix2 r z) = x (ix1 r) := by
  refine broadcastInDim_apply (![0] : Fin 1 → Fin 2) h x (ix2 r z) (ix1 r) fun ax => ?_
  match ax with
  | ⟨0, _⟩ =>
    show r.val = if n = 1 then 0 else r.val
    split
    · have := r.isLt; omega
    · rfl

/-- [a, 1] repeated over the columns of [a, b]: entry (p, q) is the column's entry p. -/
theorem bcast_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ (![0, 1] : Fin 2 → Fin 2) h x (ix2 p q) = x (ix2 p (0 : Fin 1)) := by
  refine broadcastInDim_apply (![0, 1] : Fin 2 → Fin 2) h x (ix2 p q) (ix2 p (0 : Fin 1)) fun ax => ?_
  match ax with
  | ⟨0, _⟩ =>
    show p.val = if a = 1 then 0 else p.val
    split
    · have := p.isLt; omega
    · rfl
  | ⟨1, _⟩ => rfl

end LibColumnInDim

end
-- ==== Proof.LibBatchLayouts.lean ====
/-
  Batched layouts read at an entry.

  A stack of n rows, matrices or numbers is moved between shapes that differ only by unit axes or by repeating
  entries: a row statistic [n, a] kept as a column [n, a, 1] and repeated along a new last axis [n, a, m]; one
  matrix [a, b] repeated over the batch [n, a, b]; one number per batch element [n] repeated over its matrix
  [n, 1, 1] → [n, a, b]; one number per (batch, channel) [n, a] repeated over two trailing axes [n, a, 1, 1] →
  [n, a, h, w]; a row [a] repeated over the batch [1, a] → [n, a].  Each is stated both for a TensorCore
  cast-then-broadcast and for the host's broadcast-in-dimensions, at an entry written by its coordinates; the
  extents are arbitrary.
-/
import Idealize.ShloMosaic.Lib.ValueIdx
import Idealize.ShloMosaic.Lib.Pipeline.Value

noncomputable section

namespace LibBatchLayouts

open Idealize.ShloMosaic Idealize.ShloMosaic.ValueIdx

variable {α : Type}

/-! ## TensorCore forms: shape casts that add unit axes, broadcasts that repeat along them -/

/-- [n, a] cast to [n, a, 1]: entry (b, c, u) is entry (b, c). -/
theorem shapeCast_na_na1_apply {n a : ℕ} (x : (⟨2, ![n, a]⟩ : Shape).Idx → α)
    (h : (⟨2, ![n, a]⟩ : Shape).ShapeCasts ⟨3, ![n, a, 1]⟩) (b : Fin n) (c : Fin a) (u : Fin 1) :
    shapeCast ⟨3, ![n, a, 1]⟩ x h (ix3 b c u) = x (ix2 b c) :=
  shapeCast_apply x h _ _ (by
    have hu : u.val = 0 := by omega
    rw [Shape.rowMajor_val_two, Shape.rowMajor_val_three]
    show b.val * a + c.val = (b.val * a + c.val) * 1 + u.val
    rw [hu, Nat.mul_one, Nat.add_zero])

/-- [n, a, 1] broadcast to [n, a, m]: entry (b, c, q) is entry (b, c, 0). -/
theorem broadcastTo_na1_nam_apply {n a m : ℕ} (x : (⟨3, ![n, a, 1]⟩ : Shape).Idx → α)
    (h : (⟨3, ![n, a, 1]⟩ : Shape).Broadcasts ⟨3, ![n, a, m]⟩) (b : Fin n) (c : Fin a) (q : Fin m) :
    broadcastTo ⟨3, ![n, a, m]⟩ x h (ix3 b c q) = x (ix3 b c (0 : Fin 1)) := by
  refine broadcastTo_apply x h (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [1, a, b] broadcast to [n, a, b]: entry (p, i, j) is entry (0, i, j). -/
theorem broadcastTo_1ab_nab_apply {n a b : ℕ} (x : (⟨3, ![1, a, b]⟩ : Shape).Idx → α)
    (h : (⟨3, ![1, a, b]⟩ : Shape).Broadcasts ⟨3, ![n, a, b]⟩) (p : Fin n) (i : Fin a) (j : Fin b) :
    broadcastTo ⟨3, ![n, a, b]⟩ x h (ix3 p i j) = x (ix3 (0 : Fin 1) i j) := by
  refine broadcastTo_apply x h (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] cast to [n, 1, 1]: entry (b, u, v) is entry b. -/
theorem shapeCast_n_n11_apply {n : ℕ} (x : (⟨1, ![n]⟩ : Shape).Idx → α)
    (h : (⟨1, ![n]⟩ : Shape).ShapeCasts ⟨3, ![n, 1, 1]⟩) (b : Fin n) (u v : Fin 1) :
    shapeCast ⟨3, ![n, 1, 1]⟩ x h (ix3 b u v) = x (ix1 b) :=
  shapeCast_apply x h _ _ (by
    have hu : u.val = 0 := by omega
    have hv : v.val = 0 := by omega
    rw [Shape.rowMajor_val_one, Shape.rowMajor_val_three]
    show b.val = (b.val * 1 + u.val) * 1 + v.val
    omega)

/-- [n, 1, 1] broadcast to [n, a, b]: entry (p, i, j) is entry (p, 0, 0). -/
theorem broadcastTo_n11_nab_apply {n a b : ℕ} (x : (⟨3, ![n, 1, 1]⟩ : Shape).Idx → α)
    (h : (⟨3, ![n, 1, 1]⟩ : Shape).Broadcasts ⟨3, ![n, a, b]⟩) (p : Fin n) (i : Fin a) (j : Fin b) :
    broadcastTo ⟨3, ![n, a, b]⟩ x h (ix3 p i j) = x (ix3 p (0 : Fin 1) (0 : Fin 1)) := by
  refine broadcastTo_apply x h (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-! ## Host forms: broadcast in dimensions -/

/-- [n, a] placed on axes 0, 1 of [n, a, 1]. -/
theorem bcast_na_na1_apply {n a : ℕ} (h : (⟨2, ![n, a]⟩ : Shape).BroadcastsInDim ⟨3, ![n, a, 1]⟩ (![0, 1] : Fin 2 → Fin 3))
    (x : (⟨2, ![n, a]⟩ : Shape).Idx → α) (b : Fin n) (c : Fin a) (u : Fin 1) :
    broadcastInDim ⟨3, ![n, a, 1]⟩ (![0, 1] : Fin 2 → Fin 3) h x (ix3 b c u) = x (ix2 b c) := by
  refine broadcastInDim_apply (![0, 1] : Fin 2 → Fin 3) h x (ix3 b c u) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1] repeated along the last axis of [n, a, m]. -/
theorem bcast_na1_nam_apply {n a m : ℕ} (h : (⟨3, ![n, a, 1]⟩ : Shape).BroadcastsInDim ⟨3, ![n, a, m]⟩ (![0, 1, 2] : Fin 3 → Fin 3))
    (x : (⟨3, ![n, a, 1]⟩ : Shape).Idx → α) (b : Fin n) (c : Fin a) (q : Fin m) :
    broadcastInDim ⟨3, ![n, a, m]⟩ (![0, 1, 2] : Fin 3 → Fin 3) h x (ix3 b c q) = x (ix3 b c (0 : Fin 1)) := by
  refine broadcastInDim_apply (![0, 1, 2] : Fin 3 → Fin 3) h x (ix3 b c q) (ix3 b c (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl

/-- [a, b] placed on axes 1, 2 of [1, a, b]. -/
theorem bcast_ab_1ab_apply {a b : ℕ} (h : (⟨2, ![a, b]⟩ : Shape).BroadcastsInDim ⟨3, ![1, a, b]⟩ (![1, 2] : Fin 2 → Fin 3))
    (x : (⟨2, ![a, b]⟩ : Shape).Idx → α) (u : Fin 1) (i : Fin a) (j : Fin b) :
    broadcastInDim ⟨3, ![1, a, b]⟩ (![1, 2] : Fin 2 → Fin 3) h x (ix3 u i j) = x (ix2 i j) := by
  refine broadcastInDim_apply (![1, 2] : Fin 2 → Fin 3) h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b] placed on axes 1, 2 of [n, a, b]: the same matrix for every batch element. -/
theorem bcast_ab_nab_apply {n a b : ℕ} (h : (⟨2, ![a, b]⟩ : Shape).BroadcastsInDim ⟨3, ![n, a, b]⟩ (![1, 2] : Fin 2 → Fin 3))
    (x : (⟨2, ![a, b]⟩ : Shape).Idx → α) (p : Fin n) (i : Fin a) (j : Fin b) :
    broadcastInDim ⟨3, ![n, a, b]⟩ (![1, 2] : Fin 2 → Fin 3) h x (ix3 p i j) = x (ix2 i j) := by
  refine broadcastInDim_apply (![1, 2] : Fin 2 → Fin 3) h x (ix3 p i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [1, a, b] repeated over the batch axis of [n, a, b]. -/
theorem bcast_1ab_nab_apply {n a b : ℕ} (h : (⟨3, ![1, a, b]⟩ : Shape).BroadcastsInDim ⟨3, ![n, a, b]⟩ (![0, 1, 2] : Fin 3 → Fin 3))
    (x : (⟨3, ![1, a, b]⟩ : Shape).Idx → α) (p : Fin n) (i : Fin a) (j : Fin b) :
    broadcastInDim ⟨3, ![n, a, b]⟩ (![0, 1, 2] : Fin 3 → Fin 3) h x (ix3 p i j) = x (ix3 (0 : Fin 1) i j) := by
  refine broadcastInDim_apply (![0, 1, 2] : Fin 3 → Fin 3) h x (ix3 p i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- [n] placed on axis 0 of [n, 1, 1]. -/
theorem bcast_n_n11_apply {n : ℕ} (h : (⟨1, ![n]⟩ : Shape).BroadcastsInDim ⟨3, ![n, 1, 1]⟩ (![0] : Fin 1 → Fin 3))
    (x : (⟨1, ![n]⟩ : Shape).Idx → α) (b : Fin n) (u v : Fin 1) :
    broadcastInDim ⟨3, ![n, 1, 1]⟩ (![0] : Fin 1 → Fin 3) h x (ix3 b u v) = x (ix1 b) := by
  refine broadcastInDim_apply (![0] : Fin 1 → Fin 3) h x (ix3 b u v) (ix1 b) fun ax => ?_
  match ax with
  | ⟨0, _⟩ =>
    show b.val = if n = 1 then 0 else b.val
    split
    · have := b.isLt; omega
    · rfl

/-- [n, 1, 1] repeated over the two matrix axes of [n, a, b]. -/
theorem bcast_n11_nab_apply {n a b : ℕ} (h : (⟨3, ![n, 1, 1]⟩ : Shape).BroadcastsInDim ⟨3, ![n, a, b]⟩ (![0, 1, 2] : Fin 3 → Fin 3))
    (x : (⟨3, ![n, 1, 1]⟩ : Shape).Idx → α) (p : Fin n) (i : Fin a) (j : Fin b) :
    broadcastInDim ⟨3, ![n, a, b]⟩ (![0, 1, 2] : Fin 3 → Fin 3) h x (ix3 p i j) = x (ix3 p (0 : Fin 1) (0 : Fin 1)) := by
  refine broadcastInDim_apply (![0, 1, 2] : Fin 3 → Fin 3) h x (ix3 p i j) (ix3 p (0 : Fin 1) (0 : Fin 1)) fun ax => ?_
  match ax with
  | ⟨0, _⟩ =>
    show p.val = if n = 1 then 0 else p.val
    split
    · have := p.isLt; omega
    · rfl
  | ⟨1, _⟩ => rfl
  | ⟨2, _⟩ => rfl

/-- [a] placed on axis 1 of [1, a]. -/
theorem bcast_a_1a_apply {a : ℕ} (h : (⟨1, ![a]⟩ : Shape).BroadcastsInDim ⟨2, ![1, a]⟩ (![1] : Fin 1 → Fin 2))
    (x : (⟨1, ![a]⟩ : Shape).Idx → α) (u : Fin 1) (i : Fin a) :
    broadcastInDim ⟨2, ![1, a]⟩ (![1] : Fin 1 → Fin 2) h x (ix2 u i) = x (ix1 i) := by
  refine broadcastInDim_apply (![1] : Fin 1 → Fin 2) h x (ix2 u i) (ix1 i) fun ax => ?_
  match ax with
  | ⟨0, _⟩ =>
    show i.val = if a = 1 then 0 else i.val
    split
    · have := i.isLt; omega
    · rfl

/-- [1, a] repeated over the rows of [n, a]. -/
theorem bcast_1a_na_apply {n a : ℕ} (h : (⟨2, ![1, a]⟩ : Shape).BroadcastsInDim ⟨2, ![n, a]⟩ (![0, 1] : Fin 2 → Fin 2))
    (x : (⟨2, ![1, a]⟩ : Shape).Idx → α) (p : Fin n) (i : Fin a) :
    broadcastInDim ⟨2, ![n, a]⟩ (![0, 1] : Fin 2 → Fin 2) h x (ix2 p i) = x (ix2 (0 : Fin 1) i) := by
  refine broadcastInDim_apply (![0, 1] : Fin 2 → Fin 2) h x (ix2 p i) (ix2 (0 : Fin 1) i) fun ax => ?_
  match ax with
  | ⟨0, _⟩ => rfl
  | ⟨1, _⟩ =>
    show i.val = if a = 1 then 0 else i.val
    split
    · have := i.isLt; omega
    · rfl

/-- [n, a] placed on axes 0, 1 of [n, a, 1, 1]. -/
theorem bcast_na_na11_apply {n a : ℕ} (h : (⟨2, ![n, a]⟩ : Shape).BroadcastsInDim ⟨4, ![n, a, 1, 1]⟩ (![0, 1] : Fin 2 → Fin 4))
    (x : (⟨2, ![n, a]⟩ : Shape).Idx → α) (b : Fin n) (c : Fin a) (u v : Fin 1) :
    broadcastInDim ⟨4, ![n, a, 1, 1]⟩ (![0, 1] : Fin 2 → Fin 4) h x (ix4 b c u v) = x (ix2 b c) := by
  refine broadcastInDim_apply (![0, 1] : Fin 2 → Fin 4) h x (ix4 b c u v) (ix2 b c) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl

/-- [n, a, 1, 1] repeated over the two trailing axes of [n, a, h, w]. -/
theorem bcast_na11_nahw_apply {n a hh w : ℕ}
    (h : (⟨4, ![n, a, 1, 1]⟩ : Shape).BroadcastsInDim ⟨4, ![n, a, hh, w]⟩ (![0, 1, 2, 3] : Fin 4 → Fin 4))
    (x : (⟨4, ![n, a, 1, 1]⟩ : Shape).Idx → α) (b : Fin n) (c : Fin a) (y : Fin hh) (z : Fin w) :
    broadcastInDim ⟨4, ![n, a, hh, w]⟩ (![0, 1, 2, 3] : Fin 4 → Fin 4) h x (ix4 b c y z) = x (ix4 b c (0 : Fin 1) (0 : Fin 1)) := by
  refine broadcastInDim_apply (![0, 1, 2, 3] : Fin 4 → Fin 4) h x (ix4 b c y z) (ix4 b c (0 : Fin 1) (0 : Fin 1)) fun ax => ?_
  match ax with
  | ⟨0, _⟩ =>
    show b.val = if n = 1 then 0 else b.val
    split
    · have := b.isLt; omega
    · rfl
  | ⟨1, _⟩ =>
    show c.val = if a = 1 then 0 else c.val
    split
    · have := c.isLt; omega
    · rfl
  | ⟨2, _⟩ => rfl
  | ⟨3, _⟩ => rfl

/-- A number (a rank-0 array) repeated over a two-axis shape. -/
theorem bcast_scalar2_apply {d : Fin 2 → ℕ} (h : (⟨0, ![]⟩ : Shape).BroadcastsInDim ⟨2, d⟩ (![] : Fin 0 → Fin 2))
    (x : (⟨0, ![]⟩ : Shape).Idx → α) (j : (⟨2, d⟩ : Shape).Idx) :
    broadcastInDim ⟨2, d⟩ (![] : Fin 0 → Fin 2) h x j = x ix0 := by
  unfold broadcastInDim; exact congrArg x (funext fun a => a.elim0)

/-- A number repeated over a three-axis shape. -/
theorem bcast_scalar3_apply {d : Fin 3 → ℕ} (h : (⟨0, ![]⟩ : Shape).BroadcastsInDim ⟨3, d⟩ (![] : Fin 0 → Fin 3))
    (x : (⟨0, ![]⟩ : Shape).Idx → α) (j : (⟨3, d⟩ : Shape).Idx) :
    broadcastInDim ⟨3, d⟩ (![] : Fin 0 → Fin 3) h x j = x ix0 := by
  unfold broadcastInDim; exact congrArg x (funext fun a => a.elim0)

/-- A matrix transposed: entry (j, i) is entry (i, j). -/
theorem transpose_2d_apply {a b : ℕ} (x : (⟨2, ![a, b]⟩ : Shape).Idx → α)
    (h : (⟨2, ![a, b]⟩ : Shape).Transposes ([1, 0] : List (Fin 2)) ⟨2, ![b, a]⟩) (j : Fin b) (i : Fin a) :
    transpose ⟨2, ![b, a]⟩ ([1, 0] : List (Fin 2)) x h (ix2 j i) = x (ix2 i j) :=
  transpose_apply _ x h _ _ fun c => match c with | ⟨0, _⟩ => rfl | ⟨1, _⟩ => rfl

end LibBatchLayouts

end
-- ==== Proof.Region1.lean ====
/-
  The second pallas_call: the self-loop term, the bias and the rectifier of a graph-convolution layer, 2048
  nodes at a time.

  Grid point t stages rows 2048·t … 2048·t + 2047 of the aggregated messages [262144, 16], of the transformed
  features [262144, 16] and of the per-node factor 2·dis² kept as a column [262144, 1], and the whole bias row
  [1, 16], and writes back max((agg + factor · h) + bias, 0) entry by entry, the column repeated along a row and
  the bias row repeated down the rows. Entry (p, q) of block t depends only on row 2048·t + p of the three arrays and
  on entry q of the bias: it is entry (2048·t + p, q) of the same expression over the whole arrays, with the column
  and the row repeated by the host's broadcasts. The 128 blocks tile the output.
-/
import proofs.«158792_j40776419508499_2_alg».proof.Proof.Gen.KernelIdeal.Frame
import proofs.«158792_j40776419508499_2_alg».proof.Proof.Gen.ReferenceIdeal.Read
import proofs.«158792_j40776419508499_2_alg».proof.Proof.LibColumnOps
import proofs.«158792_j40776419508499_2_alg».proof.Proof.LibRowOps
import proofs.«158792_j40776419508499_2_alg».proof.Proof.LibColumnInDim
import proofs.«158792_j40776419508499_2_alg».proof.Proof.LibBatchLayouts
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-- The body's one store at entry (p, q) of the block: the aggregated message plus the node's factor times its own
    transformed feature, plus the bias, cut off below at zero. -/
theorem pay_apply (x0 : Vec Ideal S2048x16 .f32) (x2 : Vec Ideal S2048x1 .f32) (x1 : Vec Ideal S2048x16 .f32) (x3 : Vec Ideal S1x16 .f32)
    (p : Fin 2048) (q : Fin 16) :
    k1_pay1 x0 x2 x1 x3 (ix2 p q)
      = max (x0 (ix2 p q) + x2 (ix2 p (0 : Fin 1)) * x1 (ix2 p q) + x3 (ix2 (0 : Fin 1) q)) (Ideal.ofBits .f32 0x00000000#32) := by
  unfold k1_pay1
  simp only [shapeCast_self]
  rw [maximumf_apply, addf_apply, addf_apply, mulf_apply, broadcast_apply, LibColumnOps.broadcastTo_col_apply, LibRowOps.broadcastTo_row_apply]
  rfl

/-! ## The same expression over the whole arrays, with the host's broadcasts -/

/-- max((A + D·H) + B, 0) over [262144, 16], the column D [262144, 1] and the row B [1, 16] repeated by the host's
    broadcasts. -/
def combine (A H : FVec Ideal S262144x16 .f32) (D : FVec Ideal S262144x1 .f32) (B : FVec Ideal S1x16 .f32) : FVec Ideal S262144x16 .f32 :=
  maximumf (addf (addf A (mulf (broadcastInDim Cert.ReferenceIdeal.S262144x16 ![0, 1] Cert.ReferenceIdeal.Gen.bcast_S262144x1_S262144x16_0_1 D) H))
      (broadcastInDim Cert.ReferenceIdeal.S262144x16 ![0, 1] Cert.ReferenceIdeal.Gen.bcast_S1x16_S262144x16_0_1 B))
    (broadcastInDim Cert.ReferenceIdeal.S262144x16 ![] Cert.ReferenceIdeal.Gen.bcast_S_S262144x16 (constant Cert.ReferenceIdeal.S_ .f32 0x00000000#32))

theorem combine_apply' (A H : FVec Ideal S262144x16 .f32) (D : FVec Ideal S262144x1 .f32) (B : FVec Ideal S1x16 .f32)
    (n : Fin 262144) (j : Fin 16) :
    combine A H D B (ix2 n j)
      = max (A (ix2 n j) + D (ix2 n (0 : Fin 1)) * H (ix2 n j) + B (ix2 (0 : Fin 1) j)) (Ideal.ofBits .f32 0x00000000#32) := by
  unfold combine
  rw [maximumf_apply, addf_apply, addf_apply, mulf_apply, LibColumnInDim.bcast_a1_ab_apply, LibBatchLayouts.bcast_1a_na_apply,
    LibBatchLayouts.bcast_scalar2_apply]
  rfl

theorem combine_apply (A H : FVec Ideal S262144x16 .f32) (D : FVec Ideal S262144x1 .f32) (B : FVec Ideal S1x16 .f32) (i : S262144x16.Idx) :
    combine A H D B i
      = max (A i + D (ix2 (n0 := 262144) (n1 := 1) (i 0) (0 : Fin 1)) * H i + B (ix2 (n0 := 1) (n1 := 16) (0 : Fin 1) (i 1)))
          (Ideal.ofBits .f32 0x00000000#32) := by
  obtain ⟨n, j, rfl⟩ : ∃ (n : Fin 262144) (j : Fin 16), i = ix2 n j := ⟨i 0, i 1, eq_ix2 i⟩
  exact combine_apply' A H D B n j

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The five index maps over the 128 grid points: the three node arrays and the output move by block t along the
    rows, the bias block is the whole row. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! The elements of point t's input blocks sit, in their arrays, where the output block's element (p, q) says. -/

theorem emb_agg (t : Fin cfg1.N) (p : Fin 2048) (q : Fin 16) : ((cfg1.win 0).blk t).view.emb (ix2 p q) = ((cfg1.win 4).blk t).view.emb (ix2 p q) := by
  obtain ⟨e0, e1, e2, e3, e4, e5, e6, e7, e8, e9⟩ := idx_facts t
  funext a; apply Fin.ext
  match a with
  | ⟨0, _⟩ => show win1_0.index t (0 : Fin 2) * 2048 + 1 * p.val = win1_4.index t (0 : Fin 2) * 2048 + 1 * p.val; omega
  | ⟨1, _⟩ => show win1_0.index t (1 : Fin 2) * 16 + 1 * q.val = win1_4.index t (1 : Fin 2) * 16 + 1 * q.val; omega

theorem emb_feat (t : Fin cfg1.N) (p : Fin 2048) (q : Fin 16) : ((cfg1.win 1).blk t).view.emb (ix2 p q) = ((cfg1.win 4).blk t).view.emb (ix2 p q) := by
  obtain ⟨e0, e1, e2, e3, e4, e5, e6, e7, e8, e9⟩ := idx_facts t
  funext a; apply Fin.ext
  match a with
  | ⟨0, _⟩ => show win1_1.index t (0 : Fin 2) * 2048 + 1 * p.val = win1_4.index t (0 : Fin 2) * 2048 + 1 * p.val; omega
  | ⟨1, _⟩ => show win1_1.index t (1 : Fin 2) * 16 + 1 * q.val = win1_4.index t (1 : Fin 2) * 16 + 1 * q.val; omega

theorem emb_factor (t : Fin cfg1.N) (p : Fin 2048) (q : Fin 16) :
    ((cfg1.win 2).blk t).view.emb (ix2 p (0 : Fin 1)) = ix2 (n0 := 262144) (n1 := 1) ((((cfg1.win 4).blk t).view.emb (ix2 p q)) 0) (0 : Fin 1) := by
  obtain ⟨e0, e1, e2, e3, e4, e5, e6, e7, e8, e9⟩ := idx_facts t
  funext a; apply Fin.ext
  match a with
  | ⟨0, _⟩ => show win1_2.index t (0 : Fin 2) * 2048 + 1 * p.val = win1_4.index t (0 : Fin 2) * 2048 + 1 * p.val; omega
  | ⟨1, _⟩ => show win1_2.index t (1 : Fin 2) * 1 + 1 * 0 = 0; omega

theorem emb_bias (t : Fin cfg1.N) (p : Fin 2048) (q : Fin 16) :
    ((cfg1.win 3).blk t).view.emb (ix2 (0 : Fin 1) q) = ix2 (n0 := 1) (n1 := 16) (0 : Fin 1) ((((cfg1.win 4).blk t).view.emb (ix2 p q)) 1) := by
  obtain ⟨e0, e1, e2, e3, e4, e5, e6, e7, e8, e9⟩ := idx_facts t
  funext a; apply Fin.ext
  match a with
  | ⟨0, _⟩ => show win1_3.index t (0 : Fin 2) * 1 + 1 * 0 = 0; omega
  | ⟨1, _⟩ => show win1_3.index t (1 : Fin 2) * 16 + 1 * q.val = win1_4.index t (1 : Fin 2) * 16 + 1 * q.val; omega

set_option maxHeartbeats 1000000 in
/-- What grid point t writes back is block t of the expression over the whole arrays the region finds. -/
theorem flushed_eq (c : Dev nD) (t : Fin cfg1.N) :
    (dat1 V c).flushed 4 t = ((cfg1.win 4).blk t).view.read (Elt Ideal)
      (combine (V c main_v39) (V c main_v11) (V c main_v43) (V c main_v44)) := by
  show (cfg1.win 4).cut (grid1.coords t) ((dat1 V c).after 4 t) = _
  rw [after1_4]
  unfold out1_4
  rw [View.canon_unit_zero hz]
  simp only [View.ld_unit_zero (S := S2048x16) hz, View.ld_unit_zero (S := S2048x1) hz, View.ld_unit_zero (S := S1x16) hz]
  funext j
  obtain ⟨p, q, rfl⟩ : ∃ (p : Fin 2048) (q : Fin 16), j = ix2 p q := ⟨j 0, j 1, eq_ix2 j⟩
  show k1_pay1 (iblk1 V c 0 t) (iblk1 V c 2 t) (iblk1 V c 1 t) (iblk1 V c 3 t) (ix2 p q)
    = combine (V c main_v39) (V c main_v11) (V c main_v43) (V c main_v44) (((cfg1.win 4).blk t).view.emb (ix2 p q))
  rw [pay_apply, combine_apply]
  have key : ∀ (A H : FVec Ideal S262144x16 .f32) (D : FVec Ideal S262144x1 .f32) (B : FVec Ideal S1x16 .f32),
      A (((cfg1.win 0).blk t).view.emb (ix2 p q)) + D (((cfg1.win 2).blk t).view.emb (ix2 p (0 : Fin 1))) * H (((cfg1.win 1).blk t).view.emb (ix2 p q))
          + B (((cfg1.win 3).blk t).view.emb (ix2 (0 : Fin 1) q))
        = A (((cfg1.win 4).blk t).view.emb (ix2 p q)) + D (ix2 (n0 := 262144) (n1 := 1) ((((cfg1.win 4).blk t).view.emb (ix2 p q)) 0) (0 : Fin 1)) * H (((cfg1.win 4).blk t).view.emb (ix2 p q))
          + B (ix2 (n0 := 1) (n1 := 16) (0 : Fin 1) ((((cfg1.win 4).blk t).view.emb (ix2 p q)) 1)) := by
    intro A H D B
    rw [emb_agg t p q, emb_feat t p q, emb_factor t p q, emb_bias t p q]
  exact congrArg (fun x : EReal => max x (Ideal.ofBits .f32 0x00000000#32)) (key (V c main_v39) (V c main_v11) (V c main_v43) (V c main_v44))

/-- An index of the output array is in point t's block iff each coordinate is in the block's range on its axis. -/
theorem mem_blk (t : Fin cfg1.N) (i : S262144x16.Idx) :
    i ∈ ((cfg1.win 4).blk t).view.set ↔ ∀ a : Fin 2, win1_4.index t a * S2048x16.size a ≤ (i a).val ∧ (i a).val < win1_4.index t a * S2048x16.size a + S2048x16.size a := by
  show i ∈ ((View.whole main_v45).slice (win1_4.rect t)).set ↔ _
  rw [View.set_slice_whole, Rect.mem_set_unit]
  exact Iff.rfl

/-- Row r of the output is in the block of point r / 2048: the 128 blocks tile the array. -/
theorem cover (i : S262144x16.Idx) : ∃ t : Fin cfg1.N, (cfg1.win 4).flush t = true ∧ i ∈ ((cfg1.win 4).blk t).view.set := by
  have hi0 : (i 0).val < 262144 := (i 0).isLt
  have hi1 : (i 1).val < 16 := (i 1).isLt
  refine ⟨⟨(i 0).val / 2048, by show (i 0).val / 2048 < 128; omega⟩, flush1_4 _, ?_⟩
  rw [mem_blk]
  obtain ⟨e0, e1, e2, e3, e4, e5, e6, e7, e8, e9⟩ := idx_facts ⟨(i 0).val / 2048, by show (i 0).val / 2048 < 128; omega⟩
  intro a
  match a with
  | ⟨0, _⟩ => show win1_4.index _ (0 : Fin 2) * 2048 ≤ (i 0).val ∧ (i 0).val < win1_4.index _ (0 : Fin 2) * 2048 + 2048; rw [e8]; show (i 0).val / 2048 * 2048 ≤ (i 0).val ∧ (i 0).val < (i 0).val / 2048 * 2048 + 2048; omega
  | ⟨1, _⟩ => show win1_4.index _ (1 : Fin 2) * 16 ≤ (i 1).val ∧ (i 1).val < win1_4.index _ (1 : Fin 2) * 16 + 16; rw [e9]; omega

/-- The output array after the region: the expression over the whole arrays as the region found them. -/
theorem final (c : Dev nD) :
    (dat1 V c).arrAt 4 cfg1.N = combine (V c main_v39) (V c main_v11) (V c main_v43) (V c main_v44) :=
  (dat1 V c).arrAt_eq_of_cover 4 _ (fun t _ => flushed_eq V c t) cover

end Cert.KernelIdeal.Region1

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.Region2.lean ====
/-
  The third pallas_call: the first layer's output times the second weight matrix, 2048 rows at a time.

  Grid point t stages rows 2048·t … 2048·t + 2047 of the [262144, 16] activations and the whole [16, 32] weight matrix
  and writes back their [2048, 32] product (the casts in front of the product are the identity at exact arithmetic,
  the accumulator is zero). Entry (p, q) of that block is Σ_k h[2048·t + p, k] · w[k, q] — entry (2048·t + p, q) of the
  host's product of the two whole matrices; the 128 blocks tile the output.
-/
import proofs.«158792_j40776419508499_2_alg».proof.Proof.Gen.KernelIdeal.Frame
import proofs.«158792_j40776419508499_2_alg».proof.Proof.Gen.ReferenceIdeal.Read
import proofs.«158792_j40776419508499_2_alg».proof.Proof.LibMatmulIdx
import proofs.«158792_j40776419508499_2_alg».proof.Proof.LibMatIdx
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## The block product's operand indices -/

theorem l0 (j : S2048x32.Idx) (k : dot_S2048x16_S16x32_S2048x32_1_0_0_1_n_n.contr.Idx) : (dot_S2048x16_S16x32_S2048x32_1_0_0_1_n_n.lhsIdx j k 0).val = (j 0).val := by
  unfold DotDims.lhsIdx
  rw [dif_neg (show ¬(0 : Fin S2048x16.rank) ∈ dot_S2048x16_S16x32_S2048x32_1_0_0_1_n_n.lhsBatch by decide), dif_pos (show (0 : Fin S2048x16.rank) ∈ dot_S2048x16_S16x32_S2048x32_1_0_0_1_n_n.lhsNonContracting by decide)]
  rfl
theorem l1 (j : S2048x32.Idx) (k : dot_S2048x16_S16x32_S2048x32_1_0_0_1_n_n.contr.Idx) : (dot_S2048x16_S16x32_S2048x32_1_0_0_1_n_n.lhsIdx j k 1).val = (k ⟨0, by decide⟩).val :=
  dot_S2048x16_S16x32_S2048x32_1_0_0_1_n_n.lhsIdx_val_of_single rfl j k
theorem r0 (j : S2048x32.Idx) (k : dot_S2048x16_S16x32_S2048x32_1_0_0_1_n_n.contr.Idx) : (dot_S2048x16_S16x32_S2048x32_1_0_0_1_n_n.rhsIdx j k 0).val = (k ⟨0, by decide⟩).val :=
  dot_S2048x16_S16x32_S2048x32_1_0_0_1_n_n.rhsIdx_val_of_single rfl j k
theorem r1 (j : S2048x32.Idx) (k : dot_S2048x16_S16x32_S2048x32_1_0_0_1_n_n.contr.Idx) : (dot_S2048x16_S16x32_S2048x32_1_0_0_1_n_n.rhsIdx j k 1).val = (j 1).val := by
  unfold DotDims.rhsIdx
  rw [dif_neg (show ¬(1 : Fin S16x32.rank) ∈ dot_S2048x16_S16x32_S2048x32_1_0_0_1_n_n.rhsBatch by decide), dif_pos (show (1 : Fin S16x32.rank) ∈ dot_S2048x16_S16x32_S2048x32_1_0_0_1_n_n.rhsNonContracting by decide)]
  rfl

/-- The body's one store, at entry (p, q) of the block: row p of the staged activations against column q of the
    staged weights. -/
theorem pay_apply (x0 : Vec Ideal S2048x16 .f32) (x1 : Vec Ideal S16x32 .f32) (p : Fin 2048) (q : Fin 32) :
    k2_pay1 x0 x1 (ix2 p q) = ∑ k : Fin 16, x0 (ix2 p k) * x1 (ix2 k q) := by
  unfold k2_pay1
  rw [shapeCast_self]
  exact LibMatmulIdx.matmul2_apply dot_S2048x16_S16x32_S2048x32_1_0_0_1_n_n rfl rfl l0 l1 r0 r1 none x0 x1 (ix2 p q)

/-! ## The host's product of the whole matrices -/

/-- The [262144, 16] by [16, 32] product as the host computes it, of any two operands. -/
def hostProd (X : FVec Ideal S262144x16 .f32) (W : FVec Ideal S16x32 .f32) : FVec Ideal S262144x32 .f32 :=
  Host.dotGeneral (F := Ideal) Cert.ReferenceIdeal.dot_S262144x16_S16x32_S262144x32_1_0_0_1_n_n none X W

theorem hostProd_apply (X : FVec Ideal S262144x16 .f32) (W : FVec Ideal S16x32 .f32) (i : S262144x32.Idx) :
    hostProd X W i = ∑ k : Fin 16, X (ix2 (n0 := 262144) (n1 := 16) (i 0) k) * W (ix2 (n0 := 16) (n1 := 32) k (i 1)) := by
  unfold hostProd
  exact LibMatIdx.dot2_apply Cert.ReferenceIdeal.dot_S262144x16_S16x32_S262144x32_1_0_0_1_n_n rfl rfl Cert.ReferenceIdeal.Read.lhs_main_v51_0 Cert.ReferenceIdeal.Read.lhs_main_v51_1
    Cert.ReferenceIdeal.Read.rhs_main_v51_0 Cert.ReferenceIdeal.Read.rhs_main_v51_1 none X W i

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three index maps over the 128 grid points: the activation block and the output block are block t along the
    rows, the weight block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the product of the two whole matrices the region finds. -/
theorem flushed_eq (c : Dev nD) (t : Fin cfg2.N) :
    (dat2 V c).flushed 2 t = ((cfg2.win 2).blk t).view.read (Elt Ideal) (hostProd (V c main_v45) (V c main_arg5)) := by
  show (cfg2.win 2).cut (grid2.coords t) ((dat2 V c).after 2 t) = _
  rw [after2_2]
  unfold out2_2
  rw [View.canon_unit_zero hz]
  simp only [View.ld_unit_zero (S := S2048x16) hz, View.ld_unit_zero (S := S16x32) hz]
  obtain ⟨e0, e1, e2, e3, e4, e5⟩ := idx_facts t
  funext j
  obtain ⟨p, q, rfl⟩ : ∃ (p : Fin 2048) (q : Fin 32), j = ix2 p q := ⟨j 0, j 1, eq_ix2 j⟩
  show k2_pay1 (iblk2 V c 0 t) (iblk2 V c 1 t) (ix2 p q)
    = hostProd (V c main_v45) (V c main_arg5) (((cfg2.win 2).blk t).view.emb (ix2 p q))
  rw [pay_apply, hostProd_apply]
  have key : ∀ (X : FVec Ideal S262144x16 .f32) (W : FVec Ideal S16x32 .f32),
      (∑ k : Fin 16, X (((cfg2.win 0).blk t).view.emb (ix2 p k)) * W (((cfg2.win 1).blk t).view.emb (ix2 k q)))
        = ∑ k : Fin 16, X (ix2 (n0 := 262144) (n1 := 16) ((((cfg2.win 2).blk t).view.emb (ix2 p q)) 0) k)
            * W (ix2 (n0 := 16) (n1 := 32) k ((((cfg2.win 2).blk t).view.emb (ix2 p q)) 1)) := by
    intro X W
    refine Finset.sum_congr rfl fun k _ => ?_
    have h0 : ((cfg2.win 0).blk t).view.emb (ix2 p k) = ix2 (n0 := 262144) (n1 := 16) ((((cfg2.win 2).blk t).view.emb (ix2 p q)) 0) k := by
      funext a; apply Fin.ext
      match a with
      | ⟨0, _⟩ => show win2_0.index t (0 : Fin 2) * 2048 + 1 * p.val = win2_2.index t (0 : Fin 2) * 2048 + 1 * p.val; omega
      | ⟨1, _⟩ => show win2_0.index t (1 : Fin 2) * 16 + 1 * k.val = k.val; omega
    have h1 : ((cfg2.win 1).blk t).view.emb (ix2 k q) = ix2 (n0 := 16) (n1 := 32) k ((((cfg2.win 2).blk t).view.emb (ix2 p q)) 1) := by
      funext a; apply Fin.ext
      match a with
      | ⟨0, _⟩ => show win2_1.index t (0 : Fin 2) * 16 + 1 * k.val = k.val; omega
      | ⟨1, _⟩ => show win2_1.index t (1 : Fin 2) * 32 + 1 * q.val = win2_2.index t (1 : Fin 2) * 32 + 1 * q.val; omega
    rw [h0, h1]
  exact key (V c main_v45) (V c main_arg5)

/-- An index of the output array is in point t's block iff each coordinate is in the block's range on its axis. -/
theorem mem_blk (t : Fin cfg2.N) (i : S262144x32.Idx) :
    i ∈ ((cfg2.win 2).blk t).view.set ↔ ∀ a : Fin 2, win2_2.index t a * S2048x32.size a ≤ (i a).val ∧ (i a).val < win2_2.index t a * S2048x32.size a + S2048x32.size a := by
  show i ∈ ((View.whole main_v46).slice (win2_2.rect t)).set ↔ _
  rw [View.set_slice_whole, Rect.mem_set_unit]
  exact Iff.rfl

/-- Row r of the output is in the block of point r / 2048: the 128 blocks tile the array. -/
theorem cover (i : S262144x32.Idx) : ∃ t : Fin cfg2.N, (cfg2.win 2).flush t = true ∧ i ∈ ((cfg2.win 2).blk t).view.set := by
  have hi0 : (i 0).val < 262144 := (i 0).isLt
  have hi1 : (i 1).val < 32 := (i 1).isLt
  refine ⟨⟨(i 0).val / 2048, by show (i 0).val / 2048 < 128; omega⟩, flush2_2 _, ?_⟩
  rw [mem_blk]
  obtain ⟨e0, e1, e2, e3, e4, e5⟩ := idx_facts ⟨(i 0).val / 2048, by show (i 0).val / 2048 < 128; omega⟩
  intro a
  match a with
  | ⟨0, _⟩ => show win2_2.index _ (0 : Fin 2) * 2048 ≤ (i 0).val ∧ (i 0).val < win2_2.index _ (0 : Fin 2) * 2048 + 2048; rw [e4]; show (i 0).val / 2048 * 2048 ≤ (i 0).val ∧ (i 0).val < (i 0).val / 2048 * 2048 + 2048; omega
  | ⟨1, _⟩ => show win2_2.index _ (1 : Fin 2) * 32 ≤ (i 1).val ∧ (i 1).val < win2_2.index _ (1 : Fin 2) * 32 + 32; rw [e5]; omega

/-- The output array after the region: the host's product of the two whole matrices as the region found them. -/
theorem final (c : Dev nD) : (dat2 V c).arrAt 2 cfg2.N = hostProd (V c main_v45) (V c main_arg5) :=
  (dat2 V c).arrAt_eq_of_cover 2 _ (fun t _ => flushed_eq V c t) cover

end Cert.KernelIdeal.Region2

end
-- ==== Proof.Region3.lean ====
/-
  The fourth pallas_call: the self-loop term, the bias and the rectifier of a graph-convolution layer, 2048
  nodes at a time.

  Grid point t stages rows 2048·t … 2048·t + 2047 of the aggregated messages [262144, 32], of the transformed
  features [262144, 32] and of the per-node factor 2·dis² kept as a column [262144, 1], and the whole bias row
  [1, 32], and writes back max((agg + factor · h) + bias, 0) entry by entry, the column repeated along a row and
  the bias row repeated down the rows. Entry (p, q) of block t depends only on row 2048·t + p of the three arrays and
  on entry q of the bias: it is entry (2048·t + p, q) of the same expression over the whole arrays, with the column
  and the row repeated by the host's broadcasts. The 128 blocks tile the output.
-/
import proofs.«158792_j40776419508499_2_alg».proof.Proof.Gen.KernelIdeal.Frame
import proofs.«158792_j40776419508499_2_alg».proof.Proof.Gen.ReferenceIdeal.Read
import proofs.«158792_j40776419508499_2_alg».proof.Proof.LibColumnOps
import proofs.«158792_j40776419508499_2_alg».proof.Proof.LibRowOps
import proofs.«158792_j40776419508499_2_alg».proof.Proof.LibColumnInDim
import proofs.«158792_j40776419508499_2_alg».proof.Proof.LibBatchLayouts
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx

/-- The body's one store at entry (p, q) of the block: the aggregated message plus the node's factor times its own
    transformed feature, plus the bias, cut off below at zero. -/
theorem pay_apply (x0 : Vec Ideal S2048x32 .f32) (x2 : Vec Ideal S2048x1 .f32) (x1 : Vec Ideal S2048x32 .f32) (x3 : Vec Ideal S1x32 .f32)
    (p : Fin 2048) (q : Fin 32) :
    k3_pay1 x0 x2 x1 x3 (ix2 p q)
      = max (x0 (ix2 p q) + x2 (ix2 p (0 : Fin 1)) * x1 (ix2 p q) + x3 (ix2 (0 : Fin 1) q)) (Ideal.ofBits .f32 0x00000000#32) := by
  unfold k3_pay1
  simp only [shapeCast_self]
  rw [maximumf_apply, addf_apply, addf_apply, mulf_apply, broadcast_apply, LibColumnOps.broadcastTo_col_apply, LibRowOps.broadcastTo_row_apply]
  rfl

/-! ## The same expression over the whole arrays, with the host's broadcasts -/

/-- max((A + D·H) + B, 0) over [262144, 32], the column D [262144, 1] and the row B [1, 32] repeated by the host's
    broadcasts. -/
def combine (A H : FVec Ideal S262144x32 .f32) (D : FVec Ideal S262144x1 .f32) (B : FVec Ideal S1x32 .f32) : FVec Ideal S262144x32 .f32 :=
  maximumf (addf (addf A (mulf (broadcastInDim Cert.ReferenceIdeal.S262144x32 ![0, 1] Cert.ReferenceIdeal.Gen.bcast_S262144x1_S262144x32_0_1 D) H))
      (broadcastInDim Cert.ReferenceIdeal.S262144x32 ![0, 1] Cert.ReferenceIdeal.Gen.bcast_S1x32_S262144x32_0_1 B))
    (broadcastInDim Cert.ReferenceIdeal.S262144x32 ![] Cert.ReferenceIdeal.Gen.bcast_S_S262144x32 (constant Cert.ReferenceIdeal.S_ .f32 0x00000000#32))

theorem combine_apply' (A H : FVec Ideal S262144x32 .f32) (D : FVec Ideal S262144x1 .f32) (B : FVec Ideal S1x32 .f32)
    (n : Fin 262144) (j : Fin 32) :
    combine A H D B (ix2 n j)
      = max (A (ix2 n j) + D (ix2 n (0 : Fin 1)) * H (ix2 n j) + B (ix2 (0 : Fin 1) j)) (Ideal.ofBits .f32 0x00000000#32) := by
  unfold combine
  rw [maximumf_apply, addf_apply, addf_apply, mulf_apply, LibColumnInDim.bcast_a1_ab_apply, LibBatchLayouts.bcast_1a_na_apply,
    LibBatchLayouts.bcast_scalar2_apply]
  rfl

theorem combine_apply (A H : FVec Ideal S262144x32 .f32) (D : FVec Ideal S262144x1 .f32) (B : FVec Ideal S1x32 .f32) (i : S262144x32.Idx) :
    combine A H D B i
      = max (A i + D (ix2 (n0 := 262144) (n1 := 1) (i 0) (0 : Fin 1)) * H i + B (ix2 (n0 := 1) (n1 := 32) (0 : Fin 1) (i 1)))
          (Ideal.ofBits .f32 0x00000000#32) := by
  obtain ⟨n, j, rfl⟩ : ∃ (n : Fin 262144) (j : Fin 32), i = ix2 n j := ⟨i 0, i 1, eq_ix2 i⟩
  exact combine_apply' A H D B n j

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The five index maps over the 128 grid points: the three node arrays and the output move by block t along the
    rows, the bias block is the whole row. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-! The elements of point t's input blocks sit, in their arrays, where the output block's element (p, q) says. -/

theorem emb_agg (t : Fin cfg3.N) (p : Fin 2048) (q : Fin 32) : ((cfg3.win 0).blk t).view.emb (ix2 p q) = ((cfg3.win 4).blk t).view.emb (ix2 p q) := by
  obtain ⟨e0, e1, e2, e3, e4, e5, e6, e7, e8, e9⟩ := idx_facts t
  funext a; apply Fin.ext
  match a with
  | ⟨0, _⟩ => show win3_0.index t (0 : Fin 2) * 2048 + 1 * p.val = win3_4.index t (0 : Fin 2) * 2048 + 1 * p.val; omega
  | ⟨1, _⟩ => show win3_0.index t (1 : Fin 2) * 32 + 1 * q.val = win3_4.index t (1 : Fin 2) * 32 + 1 * q.val; omega

theorem emb_feat (t : Fin cfg3.N) (p : Fin 2048) (q : Fin 32) : ((cfg3.win 1).blk t).view.emb (ix2 p q) = ((cfg3.win 4).blk t).view.emb (ix2 p q) := by
  obtain ⟨e0, e1, e2, e3, e4, e5, e6, e7, e8, e9⟩ := idx_facts t
  funext a; apply Fin.ext
  match a with
  | ⟨0, _⟩ => show win3_1.index t (0 : Fin 2) * 2048 + 1 * p.val = win3_4.index t (0 : Fin 2) * 2048 + 1 * p.val; omega
  | ⟨1, _⟩ => show win3_1.index t (1 : Fin 2) * 32 + 1 * q.val = win3_4.index t (1 : Fin 2) * 32 + 1 * q.val; omega

theorem emb_factor (t : Fin cfg3.N) (p : Fin 2048) (q : Fin 32) :
    ((cfg3.win 2).blk t).view.emb (ix2 p (0 : Fin 1)) = ix2 (n0 := 262144) (n1 := 1) ((((cfg3.win 4).blk t).view.emb (ix2 p q)) 0) (0 : Fin 1) := by
  obtain ⟨e0, e1, e2, e3, e4, e5, e6, e7, e8, e9⟩ := idx_facts t
  funext a; apply Fin.ext
  match a with
  | ⟨0, _⟩ => show win3_2.index t (0 : Fin 2) * 2048 + 1 * p.val = win3_4.index t (0 : Fin 2) * 2048 + 1 * p.val; omega
  | ⟨1, _⟩ => show win3_2.index t (1 : Fin 2) * 1 + 1 * 0 = 0; omega

theorem emb_bias (t : Fin cfg3.N) (p : Fin 2048) (q : Fin 32) :
    ((cfg3.win 3).blk t).view.emb (ix2 (0 : Fin 1) q) = ix2 (n0 := 1) (n1 := 32) (0 : Fin 1) ((((cfg3.win 4).blk t).view.emb (ix2 p q)) 1) := by
  obtain ⟨e0, e1, e2, e3, e4, e5, e6, e7, e8, e9⟩ := idx_facts t
  funext a; apply Fin.ext
  match a with
  | ⟨0, _⟩ => show win3_3.index t (0 : Fin 2) * 1 + 1 * 0 = 0; omega
  | ⟨1, _⟩ => show win3_3.index t (1 : Fin 2) * 32 + 1 * q.val = win3_4.index t (1 : Fin 2) * 32 + 1 * q.val; omega

set_option maxHeartbeats 1000000 in
/-- What grid point t writes back is block t of the expression over the whole arrays the region finds. -/
theorem flushed_eq (c : Dev nD) (t : Fin cfg3.N) :
    (dat3 V c).flushed 4 t = ((cfg3.win 4).blk t).view.read (Elt Ideal)
      (combine (V c main_v74) (V c main_v46) (V c main_v78) (V c main_v79)) := by
  show (cfg3.win 4).cut (grid3.coords t) ((dat3 V c).after 4 t) = _
  rw [after3_4]
  unfold out3_4
  rw [View.canon_unit_zero hz]
  simp only [View.ld_unit_zero (S := S2048x32) hz, View.ld_unit_zero (S := S2048x1) hz, View.ld_unit_zero (S := S1x32) hz]
  funext j
  obtain ⟨p, q, rfl⟩ : ∃ (p : Fin 2048) (q : Fin 32), j = ix2 p q := ⟨j 0, j 1, eq_ix2 j⟩
  show k3_pay1 (iblk3 V c 0 t) (iblk3 V c 2 t) (iblk3 V c 1 t) (iblk3 V c 3 t) (ix2 p q)
    = combine (V c main_v74) (V c main_v46) (V c main_v78) (V c main_v79) (((cfg3.win 4).blk t).view.emb (ix2 p q))
  rw [pay_apply, combine_apply]
  have key : ∀ (A H : FVec Ideal S262144x32 .f32) (D : FVec Ideal S262144x1 .f32) (B : FVec Ideal S1x32 .f32),
      A (((cfg3.win 0).blk t).view.emb (ix2 p q)) + D (((cfg3.win 2).blk t).view.emb (ix2 p (0 : Fin 1))) * H (((cfg3.win 1).blk t).view.emb (ix2 p q))
          + B (((cfg3.win 3).blk t).view.emb (ix2 (0 : Fin 1) q))
        = A (((cfg3.win 4).blk t).view.emb (ix2 p q)) + D (ix2 (n0 := 262144) (n1 := 1) ((((cfg3.win 4).blk t).view.emb (ix2 p q)) 0) (0 : Fin 1)) * H (((cfg3.win 4).blk t).view.emb (ix2 p q))
          + B (ix2 (n0 := 1) (n1 := 32) (0 : Fin 1) ((((cfg3.win 4).blk t).view.emb (ix2 p q)) 1)) := by
    intro A H D B
    rw [emb_agg t p q, emb_feat t p q, emb_factor t p q, emb_bias t p q]
  exact congrArg (fun x : EReal => max x (Ideal.ofBits .f32 0x00000000#32)) (key (V c main_v74) (V c main_v46) (V c main_v78) (V c main_v79))

/-- An index of the output array is in point t's block iff each coordinate is in the block's range on its axis. -/
theorem mem_blk (t : Fin cfg3.N) (i : S262144x32.Idx) :
    i ∈ ((cfg3.win 4).blk t).view.set ↔ ∀ a : Fin 2, win3_4.index t a * S2048x32.size a ≤ (i a).val ∧ (i a).val < win3_4.index t a * S2048x32.size a + S2048x32.size a := by
  show i ∈ ((View.whole main_v80).slice (win3_4.rect t)).set ↔ _
  rw [View.set_slice_whole, Rect.mem_set_unit]
  exact Iff.rfl

/-- Row r of the output is in the block of point r / 2048: the 128 blocks tile the array. -/
theorem cover (i : S262144x32.Idx) : ∃ t : Fin cfg3.N, (cfg3.win 4).flush t = true ∧ i ∈ ((cfg3.win 4).blk t).view.set := by
  have hi0 : (i 0).val < 262144 := (i 0).isLt
  have hi1 : (i 1).val < 32 := (i 1).isLt
  refine ⟨⟨(i 0).val / 2048, by show (i 0).val / 2048 < 128; omega⟩, flush3_4 _, ?_⟩
  rw [mem_blk]
  obtain ⟨e0, e1, e2, e3, e4, e5, e6, e7, e8, e9⟩ := idx_facts ⟨(i 0).val / 2048, by show (i 0).val / 2048 < 128; omega⟩
  intro a
  match a with
  | ⟨0, _⟩ => show win3_4.index _ (0 : Fin 2) * 2048 ≤ (i 0).val ∧ (i 0).val < win3_4.index _ (0 : Fin 2) * 2048 + 2048; rw [e8]; show (i 0).val / 2048 * 2048 ≤ (i 0).val ∧ (i 0).val < (i 0).val / 2048 * 2048 + 2048; omega
  | ⟨1, _⟩ => show win3_4.index _ (1 : Fin 2) * 32 ≤ (i 1).val ∧ (i 1).val < win3_4.index _ (1 : Fin 2) * 32 + 32; rw [e9]; omega

/-- The output array after the region: the expression over the whole arrays as the region found them. -/
theorem final (c : Dev nD) :
    (dat3 V c).arrAt 4 cfg3.N = combine (V c main_v74) (V c main_v46) (V c main_v78) (V c main_v79) :=
  (dat3 V c).arrAt_eq_of_cover 4 _ (fun t _ => flushed_eq V c t) cover

end Cert.KernelIdeal.Region3

end
-- ==== Proof.Region4.lean ====
/-
  The last pallas_call: the mean over each graph's nodes and the linear classifier, 4096 graphs at a time.

  Grid point t stages rows 4096·t … 4096·t + 4095 of the per-graph sums [16384, 32] and of the per-graph node counts
  kept as a column [16384, 1], the whole classifier matrix [32, 26] and its bias row [1, 26], and writes back
  (sums / max(count, 1)) · W + bias: the count column cut off below at one, repeated along the row, dividing the sums
  entry by entry; the quotient times the matrix (a product into a zero accumulator, the format changes in front of
  it the identity at exact arithmetic); the bias row repeated down the rows. Entry (p, q) of block t is
  Σ_k (s[4096·t + p, k] / max(n[4096·t + p], 1)) · W[k, q] + b[q]: it depends on row 4096·t + p only, so every block is
  the restriction of one function of the whole arrays, and the 4 blocks tile the output.
-/
import proofs.«158792_j40776419508499_2_alg».proof.Proof.Gen.KernelIdeal.Frame
import proofs.«158792_j40776419508499_2_alg».proof.Proof.LibMatmulIdx
import proofs.«158792_j40776419508499_2_alg».proof.Proof.LibColumnOps
import proofs.«158792_j40776419508499_2_alg».proof.Proof.LibRowOps
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

/-! ## The block product's operand indices -/

theorem l0 (j : S4096x26.Idx) (k : dot_S4096x32_S32x26_S4096x26_1_0_0_1_n_n.contr.Idx) : (dot_S4096x32_S32x26_S4096x26_1_0_0_1_n_n.lhsIdx j k 0).val = (j 0).val := by
  unfold DotDims.lhsIdx
  rw [dif_neg (show ¬(0 : Fin S4096x32.rank) ∈ dot_S4096x32_S32x26_S4096x26_1_0_0_1_n_n.lhsBatch by decide), dif_pos (show (0 : Fin S4096x32.rank) ∈ dot_S4096x32_S32x26_S4096x26_1_0_0_1_n_n.lhsNonContracting by decide)]
  rfl
theorem l1 (j : S4096x26.Idx) (k : dot_S4096x32_S32x26_S4096x26_1_0_0_1_n_n.contr.Idx) : (dot_S4096x32_S32x26_S4096x26_1_0_0_1_n_n.lhsIdx j k 1).val = (k ⟨0, by decide⟩).val :=
  dot_S4096x32_S32x26_S4096x26_1_0_0_1_n_n.lhsIdx_val_of_single rfl j k
theorem r0 (j : S4096x26.Idx) (k : dot_S4096x32_S32x26_S4096x26_1_0_0_1_n_n.contr.Idx) : (dot_S4096x32_S32x26_S4096x26_1_0_0_1_n_n.rhsIdx j k 0).val = (k ⟨0, by decide⟩).val :=
  dot_S4096x32_S32x26_S4096x26_1_0_0_1_n_n.rhsIdx_val_of_single rfl j k
theorem r1 (j : S4096x26.Idx) (k : dot_S4096x32_S32x26_S4096x26_1_0_0_1_n_n.contr.Idx) : (dot_S4096x32_S32x26_S4096x26_1_0_0_1_n_n.rhsIdx j k 1).val = (j 1).val := by
  unfold DotDims.rhsIdx
  rw [dif_neg (show ¬(1 : Fin S32x26.rank) ∈ dot_S4096x32_S32x26_S4096x26_1_0_0_1_n_n.rhsBatch by decide), dif_pos (show (1 : Fin S32x26.rank) ∈ dot_S4096x32_S32x26_S4096x26_1_0_0_1_n_n.rhsNonContracting by decide)]
  rfl

/-- The body's one store at entry (p, q) of the block. -/
theorem pay_apply (cn : Vec Ideal S4096x1 .f32) (su : Vec Ideal S4096x32 .f32) (w : Vec Ideal S32x26 .f32) (b : Vec Ideal S1x26 .f32)
    (p : Fin 4096) (q : Fin 26) :
    k4_pay1 cn su w b (ix2 p q)
      = (∑ k : Fin 32, Ideal.div (su (ix2 p k)) (max (cn (ix2 p (0 : Fin 1))) (Ideal.ofBits .f32 0x3F800000#32)) * w (ix2 k q))
        + b (ix2 (0 : Fin 1) q) := by
  unfold k4_pay1
  simp only [shapeCast_self]
  rw [addf_apply, LibRowOps.broadcastTo_row_apply]
  refine congrArg (fun x : EReal => x + b (ix2 (0 : Fin 1) q)) ?_
  refine (LibMatmulIdx.matmul2_apply dot_S4096x32_S32x26_S4096x26_1_0_0_1_n_n rfl rfl l0 l1 r0 r1 none
    (truncf .bf16 (divf su (broadcastTo S4096x32 (maximumf cn (broadcast S4096x1 (Scalar.ofBits .f32 0x3F800000#32))) broadcasts_S4096x1_S4096x32)) bitsLt_bf16_f32)
    (truncf .bf16 w bitsLt_bf16_f32) (ix2 p q)).trans ?_
  refine Finset.sum_congr rfl fun k _ => ?_
  rw [truncf_apply, truncf_apply, divf_apply, LibColumnOps.broadcastTo_col_apply, maximumf_apply, broadcast_apply]
  rfl

/-! ## The same expression over the whole arrays -/

/-- Entry (g, c) of the pooled-and-classified output over whole arrays: Σ_k (S[g,k] / max(N[g,0], 1)) · W[k,c] + B[0,c]. -/
def poolLinear (S : FVec Ideal S16384x32 .f32) (Cn : FVec Ideal S16384x1 .f32) (W : FVec Ideal S32x26 .f32) (B : FVec Ideal S1x26 .f32) :
    FVec Ideal S16384x26 .f32 := fun i =>
  (∑ k : Fin 32, Ideal.div (S (ix2 (n0 := 16384) (n1 := 32) (i 0) k))
      (max (Cn (ix2 (n0 := 16384) (n1 := 1) (i 0) (0 : Fin 1))) (Ideal.ofBits .f32 0x3F800000#32)) * W (ix2 (n0 := 32) (n1 := 26) k (i 1)))
    + B (ix2 (n0 := 1) (n1 := 26) (0 : Fin 1) (i 1))

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The five index maps over the 4 grid points: the sums, the counts and the output move by block t along the rows,
    the classifier matrix and the bias row are whole. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-! The elements of point t's input blocks sit, in their arrays, where the output block's element (p, q) says. -/

theorem emb_sums (t : Fin cfg4.N) (p : Fin 4096) (q : Fin 26) (k : Fin 32) :
    ((cfg4.win 0).blk t).view.emb (ix2 p k) = ix2 (n0 := 16384) (n1 := 32) ((((cfg4.win 4).blk t).view.emb (ix2 p q)) 0) k := by
  obtain ⟨e0, e1, e2, e3, e4, e5, e6, e7, e8, e9⟩ := idx_facts t
  funext a; apply Fin.ext
  match a with
  | ⟨0, _⟩ => show win4_0.index t (0 : Fin 2) * 4096 + 1 * p.val = win4_4.index t (0 : Fin 2) * 4096 + 1 * p.val; omega
  | ⟨1, _⟩ => show win4_0.index t (1 : Fin 2) * 32 + 1 * k.val = k.val; omega

theorem emb_counts (t : Fin cfg4.N) (p : Fin 4096) (q : Fin 26) :
    ((cfg4.win 1).blk t).view.emb (ix2 p (0 : Fin 1)) = ix2 (n0 := 16384) (n1 := 1) ((((cfg4.win 4).blk t).view.emb (ix2 p q)) 0) (0 : Fin 1) := by
  obtain ⟨e0, e1, e2, e3, e4, e5, e6, e7, e8, e9⟩ := idx_facts t
  funext a; apply Fin.ext
  match a with
  | ⟨0, _⟩ => show win4_1.index t (0 : Fin 2) * 4096 + 1 * p.val = win4_4.index t (0 : Fin 2) * 4096 + 1 * p.val; omega
  | ⟨1, _⟩ => show win4_1.index t (1 : Fin 2) * 1 + 1 * 0 = 0; omega

theorem emb_weights (t : Fin cfg4.N) (p : Fin 4096) (q : Fin 26) (k : Fin 32) :
    ((cfg4.win 2).blk t).view.emb (ix2 k q) = ix2 (n0 := 32) (n1 := 26) k ((((cfg4.win 4).blk t).view.emb (ix2 p q)) 1) := by
  obtain ⟨e0, e1, e2, e3, e4, e5, e6, e7, e8, e9⟩ := idx_facts t
  funext a; apply Fin.ext
  match a with
  | ⟨0, _⟩ => show win4_2.index t (0 : Fin 2) * 32 + 1 * k.val = k.val; omega
  | ⟨1, _⟩ => show win4_2.index t (1 : Fin 2) * 26 + 1 * q.val = win4_4.index t (1 : Fin 2) * 26 + 1 * q.val; omega

theorem emb_bias (t : Fin cfg4.N) (p : Fin 4096) (q : Fin 26) :
    ((cfg4.win 3).blk t).view.emb (ix2 (0 : Fin 1) q) = ix2 (n0 := 1) (n1 := 26) (0 : Fin 1) ((((cfg4.win 4).blk t).view.emb (ix2 p q)) 1) := by
  obtain ⟨e0, e1, e2, e3, e4, e5, e6, e7, e8, e9⟩ := idx_facts t
  funext a; apply Fin.ext
  match a with
  | ⟨0, _⟩ => show win4_3.index t (0 : Fin 2) * 1 + 1 * 0 = 0; omega
  | ⟨1, _⟩ => show win4_3.index t (1 : Fin 2) * 26 + 1 * q.val = win4_4.index t (1 : Fin 2) * 26 + 1 * q.val; omega

set_option maxHeartbeats 1000000 in
/-- What grid point t writes back is block t of the expression over the whole arrays the region finds. -/
theorem flushed_eq (c : Dev nD) (t : Fin cfg4.N) :
    (dat4 V c).flushed 4 t = ((cfg4.win 4).blk t).view.read (Elt Ideal)
      (poolLinear (V c main_v83) (V c main_v88) (V c main_arg7) (V c main_v89)) := by
  show (cfg4.win 4).cut (grid4.coords t) ((dat4 V c).after 4 t) = _
  rw [after4_4]
  unfold out4_4
  rw [View.canon_unit_zero hz]
  simp only [View.ld_unit_zero (S := S4096x32) hz, View.ld_unit_zero (S := S4096x1) hz, View.ld_unit_zero (S := S32x26) hz,
    View.ld_unit_zero (S := S1x26) hz]
  funext j
  obtain ⟨p, q, rfl⟩ : ∃ (p : Fin 4096) (q : Fin 26), j = ix2 p q := ⟨j 0, j 1, eq_ix2 j⟩
  show k4_pay1 (iblk4 V c 1 t) (iblk4 V c 0 t) (iblk4 V c 2 t) (iblk4 V c 3 t) (ix2 p q)
    = poolLinear (V c main_v83) (V c main_v88) (V c main_arg7) (V c main_v89) (((cfg4.win 4).blk t).view.emb (ix2 p q))
  rw [pay_apply]
  have key : ∀ (S : FVec Ideal S16384x32 .f32) (Cn : FVec Ideal S16384x1 .f32) (W : FVec Ideal S32x26 .f32) (B : FVec Ideal S1x26 .f32),
      (∑ k : Fin 32, Ideal.div (S (((cfg4.win 0).blk t).view.emb (ix2 p k))) (max (Cn (((cfg4.win 1).blk t).view.emb (ix2 p (0 : Fin 1)))) (Ideal.ofBits .f32 0x3F800000#32))
          * W (((cfg4.win 2).blk t).view.emb (ix2 k q))) + B (((cfg4.win 3).blk t).view.emb (ix2 (0 : Fin 1) q))
        = poolLinear S Cn W B (((cfg4.win 4).blk t).view.emb (ix2 p q)) := by
    intro S Cn W B
    unfold poolLinear
    rw [emb_counts t p q, emb_bias t p q]
    refine congrArg (fun x : EReal => x + B (ix2 (n0 := 1) (n1 := 26) (0 : Fin 1) ((((cfg4.win 4).blk t).view.emb (ix2 p q)) 1))) ?_
    refine Finset.sum_congr rfl fun k _ => ?_
    rw [emb_sums t p q k, emb_weights t p q k]
  exact key (V c main_v83) (V c main_v88) (V c main_arg7) (V c main_v89)

/-- An index of the output array is in point t's block iff each coordinate is in the block's range on its axis. -/
theorem mem_blk (t : Fin cfg4.N) (i : S16384x26.Idx) :
    i ∈ ((cfg4.win 4).blk t).view.set ↔ ∀ a : Fin 2, win4_4.index t a * S4096x26.size a ≤ (i a).val ∧ (i a).val < win4_4.index t a * S4096x26.size a + S4096x26.size a := by
  show i ∈ ((View.whole main_v90).slice (win4_4.rect t)).set ↔ _
  rw [View.set_slice_whole, Rect.mem_set_unit]
  exact Iff.rfl

/-- Row g of the output is in the block of point g / 4096: the 4 blocks tile the array. -/
theorem cover (i : S16384x26.Idx) : ∃ t : Fin cfg4.N, (cfg4.win 4).flush t = true ∧ i ∈ ((cfg4.win 4).blk t).view.set := by
  have hi0 : (i 0).val < 16384 := (i 0).isLt
  have hi1 : (i 1).val < 26 := (i 1).isLt
  refine ⟨⟨(i 0).val / 4096, by show (i 0).val / 4096 < 4; omega⟩, flush4_4 _, ?_⟩
  rw [mem_blk]
  obtain ⟨e0, e1, e2, e3, e4, e5, e6, e7, e8, e9⟩ := idx_facts ⟨(i 0).val / 4096, by show (i 0).val / 4096 < 4; omega⟩
  intro a
  match a with
  | ⟨0, _⟩ => show win4_4.index _ (0 : Fin 2) * 4096 ≤ (i 0).val ∧ (i 0).val < win4_4.index _ (0 : Fin 2) * 4096 + 4096; rw [e8]; show (i 0).val / 4096 * 4096 ≤ (i 0).val ∧ (i 0).val < (i 0).val / 4096 * 4096 + 4096; omega
  | ⟨1, _⟩ => show win4_4.index _ (1 : Fin 2) * 26 ≤ (i 1).val ∧ (i 1).val < win4_4.index _ (1 : Fin 2) * 26 + 26; rw [e9]; omega

/-- The output array after the region: the expression over the whole arrays as the region found them. -/
theorem final (c : Dev nD) :
    (dat4 V c).arrAt 4 cfg4.N = poolLinear (V c main_v83) (V c main_v88) (V c main_arg7) (V c main_v89) :=
  (dat4 V c).arrAt_eq_of_cover 4 _ (fun t _ => flushed_eq V c t) cover

end Cert.KernelIdeal.Region4

end
-- ==== Proof.LibUnitAxis.lean ====
/-
  A reshape that only adds a unit axis is a broadcast-in-dimensions, for any element type.

  A vector of length n reshaped to the column [n, 1] holds, at (r, 0), the vector's entry r — and so does the vector
  placed on axis 0 of [n, 1] by broadcast_in_dim. A vector of length b reshaped to the row [1, b] holds, at (0, q), the
  vector's entry q — and so does the vector placed on axis 1 of [1, b]. Two programs that differ only in which of the two
  they print (jnp's reshape against x[:, None] or x[None, :]) hold the same array.
-/
import Idealize.ShloMosaic.Lib.ValueIdx
import Idealize.ShloMosaic.Lib.Pipeline.Value
import proofs.«158792_j40776419508499_2_alg».proof.Proof.LibKeepdims
import proofs.«158792_j40776419508499_2_alg».proof.Proof.LibRowOps
import proofs.«158792_j40776419508499_2_alg».proof.Proof.LibColumnInDim
import proofs.«158792_j40776419508499_2_alg».proof.Proof.LibBatchLayouts

noncomputable section

namespace LibUnitAxis

open Idealize.ShloMosaic Idealize.ShloMosaic.ValueIdx

variable {α : Type}

/-- [n] reshaped to [n, 1] is [n] placed on axis 0 of [n, 1]. -/
theorem shapeCast_col_eq_bcast {n : ℕ} (y : (⟨1, ![n]⟩ : Shape).Idx → α)
    (h1 : (⟨1, ![n]⟩ : Shape).ShapeCasts ⟨2, ![n, 1]⟩)
    (h2 : (⟨1, ![n]⟩ : Shape).BroadcastsInDim ⟨2, ![n, 1]⟩ (![0] : Fin 1 → Fin 2)) :
    shapeCast ⟨2, ![n, 1]⟩ y h1 = broadcastInDim ⟨2, ![n, 1]⟩ (![0] : Fin 1 → Fin 2) h2 y := by
  funext i
  obtain ⟨r, z, rfl⟩ : ∃ (r : Fin n) (z : Fin 1), i = ix2 r z := ⟨i 0, i 1, eq_ix2 i⟩
  rw [LibKeepdims.shapeCast_col_apply, LibColumnInDim.bcast_n_n1_apply]

/-- [b] reshaped to [1, b] is [b] placed on axis 1 of [1, b]. -/
theorem shapeCast_row_eq_bcast {b : ℕ} (y : (⟨1, ![b]⟩ : Shape).Idx → α)
    (h1 : (⟨1, ![b]⟩ : Shape).ShapeCasts ⟨2, ![1, b]⟩)
    (h2 : (⟨1, ![b]⟩ : Shape).BroadcastsInDim ⟨2, ![1, b]⟩ (![1] : Fin 1 → Fin 2)) :
    shapeCast ⟨2, ![1, b]⟩ y h1 = broadcastInDim ⟨2, ![1, b]⟩ (![1] : Fin 1 → Fin 2) h2 y := by
  funext i
  obtain ⟨z, q, rfl⟩ : ∃ (z : Fin 1) (q : Fin b), i = ix2 z q := ⟨i 0, i 1, eq_ix2 i⟩
  rw [LibRowOps.shapeCast_row_apply, LibBatchLayouts.bcast_a_1a_apply]

end LibUnitAxis

end
-- ==== Proof.Chain.lean ====
/-
  The kernel program's buffers, boundary by boundary, against the reference's stages.

  Both programs compute the same chain: the edge endpoints, the degree-based scale dis, and per layer a dense
  product, a gather of rows at the edge sources scaled by dis[src]·dis[dst], a segment sum at the edge targets, the
  self-loop term 2·dis²·h, the bias and the rectifier; then the per-graph sums and counts and the classifier. The
  reference does all of it with host operations; the kernel program does the dense products, the
  combine-and-rectify steps and the pooling-and-classifier step in pallas_calls and everything else with the SAME host
  operations. So, walking the kernel program's segment boundaries in order: a stretch of host operations applied to
  buffers that hold the reference's stages yields the reference's next stages (the operations are the same), and a
  pallas_call's output array is the reference's corresponding stage by the region's block-cover lemma. Two spellings
  differ on the host side only: the kernel program reshapes a vector to a column or a row where the reference places it
  by broadcast_in_dim, which is the same array.
-/
import proofs.«158792_j40776419508499_2_alg».proof.Proof.Gen.KernelIdeal.Frame
import proofs.«158792_j40776419508499_2_alg».proof.Proof.Gen.ReferenceIdeal.Read
import proofs.«158792_j40776419508499_2_alg».proof.Proof.Region0
import proofs.«158792_j40776419508499_2_alg».proof.Proof.Region1
import proofs.«158792_j40776419508499_2_alg».proof.Proof.Region2
import proofs.«158792_j40776419508499_2_alg».proof.Proof.Region3
import proofs.«158792_j40776419508499_2_alg».proof.Proof.Region4
import proofs.«158792_j40776419508499_2_alg».proof.Proof.LibUnitAxis
import Idealize.ShloMosaic.Lib.StableHlo.Run
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx
open Cert.ReferenceIdeal.Read

variable (m : (ℓ : Loc nD τ sig) → Buf (Elt Ideal) ℓ) (ρ : Dev nD → PrngReg) (c : Dev nD)

/-- A function of four arrays at equal arrays. -/
theorem congr4 {α β γ δ ε : Type} (f : α → β → γ → δ → ε) {a a' : α} {b b' : β} {x x' : γ} {d d' : δ}
    (h1 : a = a') (h2 : b = b') (h3 : x = x') (h4 : d = d') : f a b x d = f a' b' x' d' := by
  subst h1 h2 h3 h4; rfl

/-! ## What every boundary up to the fourth pallas_call keeps

The edge endpoints and the scale dis are computed by the first stretch and read again by the later ones; the
arguments are read where their layer needs them. No host operation and no pallas_call in between writes any of
them. -/

/-- The buffers a boundary's contents `W` must still hold for the later segments. -/
structure Kept (W : Valuation τ sig (Elt Ideal)) : Prop where
  src : W (Proc.devRef .tc main_v1) = val_main_v1 (F := Ideal) (m ((c : Thread nD τ).loc main_arg1))
  dst : W (Proc.devRef .tc main_v3) = val_main_v3 (F := Ideal) (m ((c : Thread nD τ).loc main_arg1))
  dis : W (Proc.devRef .tc main_v10) = val_main_v11 (F := Ideal) (m ((c : Thread nD τ).loc main_arg1))
  g2 : W (Proc.devRef .tc main_arg2) = (m ((c : Thread nD τ).loc main_arg2))
  g4 : W (Proc.devRef .tc main_arg4) = (m ((c : Thread nD τ).loc main_arg4))
  g5 : W (Proc.devRef .tc main_arg5) = (m ((c : Thread nD τ).loc main_arg5))
  g6 : W (Proc.devRef .tc main_arg6) = (m ((c : Thread nD τ).loc main_arg6))
  g7 : W (Proc.devRef .tc main_arg7) = (m ((c : Thread nD τ).loc main_arg7))
  g8 : W (Proc.devRef .tc main_arg8) = (m ((c : Thread nD τ).loc main_arg8))

/-- After the first stretch: the endpoints and the scale as the reference's stages, the arguments as launched. -/
theorem kept1 : Kept m c (W1 m ρ c) where
  src := by show StableHlo.after hostOps0 (W0 m ρ c) (Proc.devRef .tc main_v1) = _; after_results <;> rfl
  dst := by show StableHlo.after hostOps0 (W0 m ρ c) (Proc.devRef .tc main_v3) = _; after_results <;> rfl
  dis := by show StableHlo.after hostOps0 (W0 m ρ c) (Proc.devRef .tc main_v10) = _; after_results <;> rfl
  g2 := by show StableHlo.after hostOps0 (W0 m ρ c) (Proc.devRef .tc main_arg2) = _; after_results <;> rfl
  g4 := by show StableHlo.after hostOps0 (W0 m ρ c) (Proc.devRef .tc main_arg4) = _; after_results <;> rfl
  g5 := by show StableHlo.after hostOps0 (W0 m ρ c) (Proc.devRef .tc main_arg5) = _; after_results <;> rfl
  g6 := by show StableHlo.after hostOps0 (W0 m ρ c) (Proc.devRef .tc main_arg6) = _; after_results <;> rfl
  g7 := by show StableHlo.after hostOps0 (W0 m ρ c) (Proc.devRef .tc main_arg7) = _; after_results <;> rfl
  g8 := by show StableHlo.after hostOps0 (W0 m ρ c) (Proc.devRef .tc main_arg8) = _; after_results <;> rfl

theorem arg0_1 : W1 m ρ c (Proc.devRef .tc main_arg0) = (m ((c : Thread nD τ).loc main_arg0)) := by
  show StableHlo.after hostOps0 (W0 m ρ c) (Proc.devRef .tc main_arg0) = _; after_results <;> rfl
theorem arg3_1 : W1 m ρ c (Proc.devRef .tc main_arg3) = (m ((c : Thread nD τ).loc main_arg3)) := by
  show StableHlo.after hostOps0 (W0 m ρ c) (Proc.devRef .tc main_arg3) = _; after_results <;> rfl

/-! ## The first pallas_call: h·W₁ -/

theorem v11_2 : W2 m ρ c (Proc.devRef .tc main_v11) = val_main_v4 (F := Ideal) (m ((c : Thread nD τ).loc main_arg0)) (m ((c : Thread nD τ).loc main_arg3)) :=
  (W2_arr m ρ c 2).trans ((Region0.final (V1 m ρ) c).trans
    (congrArg₂ (val_main_v4 (F := Ideal)) (arg0_1 m ρ c) (arg3_1 m ρ c)))

theorem kept2 : Kept m c (W2 m ρ c) :=
  have h := kept1 m ρ c
  { src := (W2_of_ne m ρ c main_v1 (by decide)).trans h.src
    dst := (W2_of_ne m ρ c main_v3 (by decide)).trans h.dst
    dis := (W2_of_ne m ρ c main_v10 (by decide)).trans h.dis
    g2 := (W2_of_ne m ρ c main_arg2 (by decide)).trans h.g2
    g4 := (W2_of_ne m ρ c main_arg4 (by decide)).trans h.g4
    g5 := (W2_of_ne m ρ c main_arg5 (by decide)).trans h.g5
    g6 := (W2_of_ne m ρ c main_arg6 (by decide)).trans h.g6
    g7 := (W2_of_ne m ρ c main_arg7 (by decide)).trans h.g7
    g8 := (W2_of_ne m ρ c main_arg8 (by decide)).trans h.g8 }

/-! ## The second stretch: the first layer's messages summed at their targets, the factor column, the bias row -/

set_option maxHeartbeats 4000000 in
theorem kept3 : Kept m c (W3 m ρ c) :=
  have h := kept2 m ρ c
  { src := by show StableHlo.after hostOps1 (W2 m ρ c) (Proc.devRef .tc main_v1) = _; after_results_simp; exact h.src
    dst := by show StableHlo.after hostOps1 (W2 m ρ c) (Proc.devRef .tc main_v3) = _; after_results_simp; exact h.dst
    dis := by show StableHlo.after hostOps1 (W2 m ρ c) (Proc.devRef .tc main_v10) = _; after_results_simp; exact h.dis
    g2 := by show StableHlo.after hostOps1 (W2 m ρ c) (Proc.devRef .tc main_arg2) = _; after_results_simp; exact h.g2
    g4 := by show StableHlo.after hostOps1 (W2 m ρ c) (Proc.devRef .tc main_arg4) = _; after_results_simp; exact h.g4
    g5 := by show StableHlo.after hostOps1 (W2 m ρ c) (Proc.devRef .tc main_arg5) = _; after_results_simp; exact h.g5
    g6 := by show StableHlo.after hostOps1 (W2 m ρ c) (Proc.devRef .tc main_arg6) = _; after_results_simp; exact h.g6
    g7 := by show StableHlo.after hostOps1 (W2 m ρ c) (Proc.devRef .tc main_arg7) = _; after_results_simp; exact h.g7
    g8 := by show StableHlo.after hostOps1 (W2 m ρ c) (Proc.devRef .tc main_arg8) = _; after_results_simp; exact h.g8 }

theorem v11_3 : W3 m ρ c (Proc.devRef .tc main_v11) = val_main_v4 (F := Ideal) (m ((c : Thread nD τ).loc main_arg0)) (m ((c : Thread nD τ).loc main_arg3)) := by
  show StableHlo.after hostOps1 (W2 m ρ c) (Proc.devRef .tc main_v11) = _; after_results_simp; exact v11_2 m ρ c

/-- The same host operations applied to the same arrays: the reference's aggregated messages of layer 1. -/
theorem v39_3 : W3 m ρ c (Proc.devRef .tc main_v39) = val_main_v39 (F := Ideal) (m ((c : Thread nD τ).loc main_arg0)) (m ((c : Thread nD τ).loc main_arg1)) (m ((c : Thread nD τ).loc main_arg3)) := by
  have h := kept2 m ρ c
  show StableHlo.after hostOps1 (W2 m ρ c) (Proc.devRef .tc main_v39) = _
  after_results_simp
  rw [h.src, h.dst, h.dis, v11_2 m ρ c]
  rfl

/-- The factor 2·dis², reshaped to a column here and placed on axis 0 of the column there. -/
theorem v43_3 : W3 m ρ c (Proc.devRef .tc main_v43) = val_main_v43 (F := Ideal) (m ((c : Thread nD τ).loc main_arg1)) := by
  have h := kept2 m ρ c
  show StableHlo.after hostOps1 (W2 m ρ c) (Proc.devRef .tc main_v43) = _
  after_results_simp
  rw [h.dis]
  refine Eq.trans (b := shapeCast S262144x1 (val_main_v42 (F := Ideal) (m ((c : Thread nD τ).loc main_arg1))) shapeCasts_S262144_S262144x1) rfl ?_
  exact LibUnitAxis.shapeCast_col_eq_bcast _ _ Cert.ReferenceIdeal.Gen.bcast_S262144_S262144x1_0

/-- The bias, reshaped to a row here and placed on axis 1 of the row there. -/
theorem v44_3 : W3 m ρ c (Proc.devRef .tc main_v44) = val_main_v47 (F := Ideal) (m ((c : Thread nD τ).loc main_arg4)) := by
  have h := kept2 m ρ c
  show StableHlo.after hostOps1 (W2 m ρ c) (Proc.devRef .tc main_v44) = _
  after_results_simp
  rw [h.g4]
  refine Eq.trans (b := shapeCast S1x16 (m ((c : Thread nD τ).loc main_arg4)) shapeCasts_S16_S1x16) rfl ?_
  exact LibUnitAxis.shapeCast_row_eq_bcast _ _ Cert.ReferenceIdeal.Gen.bcast_S16_S1x16_1

/-! ## The second pallas_call: the first layer's output -/

theorem v45_4 : W4 m ρ c (Proc.devRef .tc main_v45) = val_main_v50 (F := Ideal) (m ((c : Thread nD τ).loc main_arg0)) (m ((c : Thread nD τ).loc main_arg1)) (m ((c : Thread nD τ).loc main_arg3)) (m ((c : Thread nD τ).loc main_arg4)) :=
  (W4_arr m ρ c 4).trans ((Region1.final (V3 m ρ) c).trans
    ((congr4 Region1.combine (v39_3 m ρ c) (v11_3 m ρ c) (v43_3 m ρ c) (v44_3 m ρ c)).trans rfl))

theorem kept4 : Kept m c (W4 m ρ c) :=
  have h := kept3 m ρ c
  { src := (W4_of_ne m ρ c main_v1 (by decide)).trans h.src
    dst := (W4_of_ne m ρ c main_v3 (by decide)).trans h.dst
    dis := (W4_of_ne m ρ c main_v10 (by decide)).trans h.dis
    g2 := (W4_of_ne m ρ c main_arg2 (by decide)).trans h.g2
    g4 := (W4_of_ne m ρ c main_arg4 (by decide)).trans h.g4
    g5 := (W4_of_ne m ρ c main_arg5 (by decide)).trans h.g5
    g6 := (W4_of_ne m ρ c main_arg6 (by decide)).trans h.g6
    g7 := (W4_of_ne m ρ c main_arg7 (by decide)).trans h.g7
    g8 := (W4_of_ne m ρ c main_arg8 (by decide)).trans h.g8 }

/-! ## The third pallas_call: h₁·W₂ -/

theorem v46_5 : W5 m ρ c (Proc.devRef .tc main_v46) = val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W5_arr m ρ c 2).trans ((Region2.final (V4 m ρ) c).trans
    ((congrArg₂ Region2.hostProd (v45_4 m ρ c) (kept4 m ρ c).g5).trans rfl))

theorem kept5 : Kept m c (W5 m ρ c) :=
  have h := kept4 m ρ c
  { src := (W5_of_ne m ρ c main_v1 (by decide)).trans h.src
    dst := (W5_of_ne m ρ c main_v3 (by decide)).trans h.dst
    dis := (W5_of_ne m ρ c main_v10 (by decide)).trans h.dis
    g2 := (W5_of_ne m ρ c main_arg2 (by decide)).trans h.g2
    g4 := (W5_of_ne m ρ c main_arg4 (by decide)).trans h.g4
    g5 := ((W5_arr m ρ c 1).trans (((dat2 (V4 m ρ) c).arrAt_in 1 rfl _).trans (A_eq2 (V4 m ρ) c 1))).trans h.g5
    g6 := (W5_of_ne m ρ c main_arg6 (by decide)).trans h.g6
    g7 := (W5_of_ne m ρ c main_arg7 (by decide)).trans h.g7
    g8 := (W5_of_ne m ρ c main_arg8 (by decide)).trans h.g8 }

/-! ## The third stretch: the second layer's messages, factor column and bias row -/

set_option maxHeartbeats 4000000 in
theorem kept6 : Kept m c (W6 m ρ c) :=
  have h := kept5 m ρ c
  { src := by show StableHlo.after hostOps3 (W5 m ρ c) (Proc.devRef .tc main_v1) = _; after_results_simp; exact h.src
    dst := by show StableHlo.after hostOps3 (W5 m ρ c) (Proc.devRef .tc main_v3) = _; after_results_simp; exact h.dst
    dis := by show StableHlo.after hostOps3 (W5 m ρ c) (Proc.devRef .tc main_v10) = _; after_results_simp; exact h.dis
    g2 := by show StableHlo.after hostOps3 (W5 m ρ c) (Proc.devRef .tc main_arg2) = _; after_results_simp; exact h.g2
    g4 := by show StableHlo.after hostOps3 (W5 m ρ c) (Proc.devRef .tc main_arg4) = _; after_results_simp; exact h.g4
    g5 := by show StableHlo.after hostOps3 (W5 m ρ c) (Proc.devRef .tc main_arg5) = _; after_results_simp; exact h.g5
    g6 := by show StableHlo.after hostOps3 (W5 m ρ c) (Proc.devRef .tc main_arg6) = _; after_results_simp; exact h.g6
    g7 := by show StableHlo.after hostOps3 (W5 m ρ c) (Proc.devRef .tc main_arg7) = _; after_results_simp; exact h.g7
    g8 := by show StableHlo.after hostOps3 (W5 m ρ c) (Proc.devRef .tc main_arg8) = _; after_results_simp; exact h.g8 }

theorem v46_6 : W6 m ρ c (Proc.devRef .tc main_v46) = val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v46) = _; after_results_simp; exact v46_5 m ρ c

/-- The same host operations applied to the same arrays (the reference recomputes the scale dis for this layer; it
    is the same term): the reference's aggregated messages of layer 2. -/
theorem v74_6 : W6 m ρ c (Proc.devRef .tc main_v74) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have h := kept5 m ρ c
  show StableHlo.after hostOps3 (W5 m ρ c) (Proc.devRef .tc main_v74) = _
  after_results_simp
  rw [h.src, h.dst, h.dis, v46_5 m ρ c]
  rfl

theorem v78_6 : W6 m ρ c (Proc.devRef .tc main_v78) = val_main_v90 (F := Ideal) (m ((c : Thread nD τ).loc main_arg1)) := by
  have h := kept5 m ρ c
  show StableHlo.after hostOps3 (W5 m ρ c) (Proc.devRef .tc main_v78) = _
  after_results_simp
  rw [h.dis]
  refine Eq.trans (b := shapeCast S262144x1 (val_main_v89 (F := Ideal) (m ((c : Thread nD τ).loc main_arg1))) shapeCasts_S262144_S262144x1) rfl ?_
  exact LibUnitAxis.shapeCast_col_eq_bcast _ _ Cert.ReferenceIdeal.Gen.bcast_S262144_S262144x1_0

theorem v79_6 : W6 m ρ c (Proc.devRef .tc main_v79) = val_main_v94 (F := Ideal) (m ((c : Thread nD τ).loc main_arg6)) := by
  have h := kept5 m ρ c
  show StableHlo.after hostOps3 (W5 m ρ c) (Proc.devRef .tc main_v79) = _
  after_results_simp
  rw [h.g6]
  refine Eq.trans (b := shapeCast S1x32 (m ((c : Thread nD τ).loc main_arg6)) shapeCasts_S32_S1x32) rfl ?_
  exact LibUnitAxis.shapeCast_row_eq_bcast _ _ Cert.ReferenceIdeal.Gen.bcast_S32_S1x32_1

/-! ## The fourth pallas_call: the second layer's output -/

theorem v80_7 : W7 m ρ c (Proc.devRef .tc main_v80) = val_main_v97 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W7_arr m ρ c 4).trans ((Region3.final (V6 m ρ) c).trans
    ((congr4 Region3.combine (v74_6 m ρ c) (v46_6 m ρ c) (v78_6 m ρ c) (v79_6 m ρ c)).trans rfl))

theorem kept7 : Kept m c (W7 m ρ c) :=
  have h := kept6 m ρ c
  { src := (W7_of_ne m ρ c main_v1 (by decide)).trans h.src
    dst := (W7_of_ne m ρ c main_v3 (by decide)).trans h.dst
    dis := (W7_of_ne m ρ c main_v10 (by decide)).trans h.dis
    g2 := (W7_of_ne m ρ c main_arg2 (by decide)).trans h.g2
    g4 := (W7_of_ne m ρ c main_arg4 (by decide)).trans h.g4
    g5 := (W7_of_ne m ρ c main_arg5 (by decide)).trans h.g5
    g6 := (W7_of_ne m ρ c main_arg6 (by decide)).trans h.g6
    g7 := (W7_of_ne m ρ c main_arg7 (by decide)).trans h.g7
    g8 := (W7_of_ne m ρ c main_arg8 (by decide)).trans h.g8 }

/-! ## The last stretch: the per-graph sums and counts, the bias row -/

theorem v83_8 : W8 m ρ c (Proc.devRef .tc main_v83) = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := kept7 m ρ c
  show StableHlo.after hostOps4 (W7 m ρ c) (Proc.devRef .tc main_v83) = _
  after_results
  rw [h.g2, v80_7 m ρ c]
  rfl

/-- The per-graph node counts, reshaped to a column here; placed on axis 0 of the column, they are the same array. -/
theorem v88_8 : W8 m ρ c (Proc.devRef .tc main_v88)
    = broadcastInDim Cert.ReferenceIdeal.S16384x1 ![0] Cert.ReferenceIdeal.Gen.bcast_S16384_S16384x1_0 (val_main_v104 (F := Ideal) (m ((c : Thread nD τ).loc main_arg2))) := by
  have h := kept7 m ρ c
  show StableHlo.after hostOps4 (W7 m ρ c) (Proc.devRef .tc main_v88) = _
  after_results
  rw [h.g2]
  refine Eq.trans (b := shapeCast S16384x1 (val_main_v104 (F := Ideal) (m ((c : Thread nD τ).loc main_arg2))) shapeCasts_S16384_S16384x1) rfl ?_
  exact LibUnitAxis.shapeCast_col_eq_bcast _ _ Cert.ReferenceIdeal.Gen.bcast_S16384_S16384x1_0

theorem v89_8 : W8 m ρ c (Proc.devRef .tc main_v89) = val_main_v111 (F := Ideal) (m ((c : Thread nD τ).loc main_arg8)) := by
  have h := kept7 m ρ c
  show StableHlo.after hostOps4 (W7 m ρ c) (Proc.devRef .tc main_v89) = _
  after_results
  rw [h.g8]
  refine Eq.trans (b := shapeCast S1x26 (m ((c : Thread nD τ).loc main_arg8)) shapeCasts_S26_S1x26) rfl ?_
  exact LibUnitAxis.shapeCast_row_eq_bcast _ _ Cert.ReferenceIdeal.Gen.bcast_S26_S1x26_1

theorem arg7_8 : W8 m ρ c (Proc.devRef .tc main_arg7) = (m ((c : Thread nD τ).loc main_arg7)) := by
  have h := kept7 m ρ c
  show StableHlo.after hostOps4 (W7 m ρ c) (Proc.devRef .tc main_arg7) = _
  after_results
  exact h.g7

/-! ## The last pallas_call against the reference's last stages -/

/-- Entry by entry: the kernel cuts the count column off at one and repeats it along the row inside the block; the
    reference cuts the count vector off at one, places it as a column and repeats it; both divide the sums by the
    same number, take the same product with the classifier matrix and add the same bias entry. -/
theorem pool_eq (x0 : (⟨Cert.ReferenceIdeal.S262144x3, .f32⟩ : BufTy).Contents (Elt Ideal)) (x1 : (⟨Cert.ReferenceIdeal.S2x4194304, .i32⟩ : BufTy).Contents (Elt Ideal)) (x2 : (⟨Cert.ReferenceIdeal.S262144, .i32⟩ : BufTy).Contents (Elt Ideal)) (x3 : (⟨Cert.ReferenceIdeal.S3x16, .f32⟩ : BufTy).Contents (Elt Ideal)) (x4 : (⟨Cert.ReferenceIdeal.S16, .f32⟩ : BufTy).Contents (Elt Ideal)) (x5 : (⟨Cert.ReferenceIdeal.S16x32, .f32⟩ : BufTy).Contents (Elt Ideal)) (x6 : (⟨Cert.ReferenceIdeal.S32, .f32⟩ : BufTy).Contents (Elt Ideal)) (x7 : (⟨Cert.ReferenceIdeal.S32x26, .f32⟩ : BufTy).Contents (Elt Ideal)) (x8 : (⟨Cert.ReferenceIdeal.S26, .f32⟩ : BufTy).Contents (Elt Ideal)) :
    Region4.poolLinear (val_main_v100 (F := Ideal) x0 x1 x2 x3 x4 x5 x6)
        (broadcastInDim Cert.ReferenceIdeal.S16384x1 ![0] Cert.ReferenceIdeal.Gen.bcast_S16384_S16384x1_0 (val_main_v104 (F := Ideal) x2)) x7
        (val_main_v111 (F := Ideal) x8)
      = val_main_v113 (F := Ideal) x0 x1 x2 x3 x4 x5 x6 x7 x8 := by
  funext i
  obtain ⟨g, q, rfl⟩ : ∃ (g : Fin 16384) (q : Fin 26), i = ix2 g q := ⟨i 0, i 1, eq_ix2 i⟩
  unfold Region4.poolLinear
  rw [val_main_v113_apply, val_main_v110_apply, val_main_v112_apply, val_main_v111_apply, val_main_v111_apply]
  refine congrArg₂ (fun a b : EReal => a + b) (Finset.sum_congr rfl fun k _ => ?_) ?_
  · have e1 : lidx_main_v110 (ix2 g q) k = ix2 g k := funext fun a => match a with | ⟨0, _⟩ => rfl | ⟨1, _⟩ => rfl
    have e2 : ridx_main_v110 (ix2 g q) k = ix2 k q := funext fun a => match a with | ⟨0, _⟩ => rfl | ⟨1, _⟩ => rfl
    have e3 : idx_main_v107 (idx_main_v108 (ix2 g k)) = ix1 g := funext fun a => match a with | ⟨0, _⟩ => rfl
    rw [e1, e2, val_main_v109_apply, val_main_v108_apply, val_main_v107_apply, e3, val_main_v106_apply, val_main_v105_apply,
      val_main_cst_23_apply, LibColumnInDim.bcast_n_n1_apply]
    rfl
  · exact congrArg x8 (funext fun a => match a with | ⟨0, _⟩ => rfl)

/-! ## The result -/

/-- The kernel program's result buffer at the last boundary holds the reference's result term of the launch
    arguments. -/
theorem result : W9 m ρ c (Proc.devRef .tc main_v90)
    = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W9_arr m ρ c 4).trans ((Region4.final (V8 m ρ) c).trans
    ((congr4 Region4.poolLinear (v83_8 m ρ c) (v88_8 m ρ c) (arg7_8 m ρ c) (v89_8 m ρ c)).trans
      (pool_eq _ _ _ _ _ _ _ _ _)))

end Cert.KernelIdeal.Chain

end
-- ==== Proof.lean ====
/-
  Two graph-convolution layers (each: a dense product, the messages h[src]·dis[src]·dis[dst] summed at the edge
  targets, the self-loop term 2·dis²·h, the bias, the rectifier), the mean over each graph's nodes and a linear
  classifier — once as five pallas_calls among host operations, once with host operations only.

  At exact arithmetic the two programs are the same composition, term by term: the degree-based scale, the gathers
  and the segment sums are the same host operations on both sides; the kernel's dense products are the host's
  products block by block (a change of float format in front of a product is the identity, the accumulator is zero);
  the kernel's combine-and-rectify steps and its pooling-and-classifier step are the host's expressions entry by
  entry, a column or a row repeated inside a block exactly as the host's broadcasts repeat it over the whole array;
  every pallas_call's blocks tile its output. No algebraic law of the extended reals is used beyond reading both
  sides at an index, so the precondition (finite inputs) is not opened.

  Proof/Region0 … Region4: each pallas_call's output array as one function of the arrays it finds.
  Proof/KernelRun: the kernel program's run with its result buffer named.
  Proof/Chain: the kernel program's buffers, segment boundary by segment boundary, against the reference's stages.
  The kernel's and the idealized kernel's frames are the generated frame certificates; the reference's frame and
  result are its generated run; the idealization rewrote no operation, so there is nothing to preserve.
-/
import proofs.«158792_j40776419508499_2_alg».proof.Defs
import proofs.«158792_j40776419508499_2_alg».proof.Proof.Gen.Kernel
import proofs.«158792_j40776419508499_2_alg».proof.Proof.Gen.Kernel.Frame
import proofs.«158792_j40776419508499_2_alg».proof.Proof.Gen.KernelIdeal
import proofs.«158792_j40776419508499_2_alg».proof.Proof.Gen.KernelIdeal.Frame
import proofs.«158792_j40776419508499_2_alg».proof.Proof.Gen.ReferenceIdeal
import proofs.«158792_j40776419508499_2_alg».proof.Proof.Gen.ReferenceIdeal.Run
import proofs.«158792_j40776419508499_2_alg».proof.Proof.Gen.ReferenceIdeal.Read
import proofs.«158792_j40776419508499_2_alg».proof.Proof.Gen.Pre_finite_inputs
import proofs.«158792_j40776419508499_2_alg».proof.Proof.KernelRun
import proofs.«158792_j40776419508499_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result buffer at the reference's result term of the (agreeing) argument arrays. -/
theorem algebraic : Cert.algebraic_KernelIdeal_ReferenceIdeal := by
  intro m ρ m' ρ' _ hagree
  refine ⟨fun c => Cert.ReferenceIdeal.Read.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.result m ρ c), (h c).2⟩) (Cert.KernelIdeal.ValueRun.run (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v113_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
